-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S384x64 : Shape := ⟨2, ![384, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64 .f32) (main_arg10 : FVec F S64x10 .f32) (main_arg11 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg10
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x10 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S384x64 .f32) (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S384x64 .f32 := Host.absf main_arg4
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S384x64 : Shape := ⟨2, ![384, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S800000x1 : Shape := ⟨2, ![800000, 1]⟩
abbrev S1x800000 : Shape := ⟨2, ![1, 800000]⟩
abbrev S_ : Shape := ⟨0, ![]⟩
abbrev S800000x128 : Shape := ⟨2, ![800000, 128]⟩
abbrev S850000 : Shape := ⟨1, ![850000]⟩
abbrev S850000x1 : Shape := ⟨2, ![850000, 1]⟩
abbrev S128x64 : Shape := ⟨2, ![128, 64]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 177
  | .vmem => 44
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S384x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S800000x1, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x128, .f32⟩
  | 25 => ⟨S800000x128, .f32⟩
  | 26 => ⟨S1x800000, .i32⟩
  | 27 => ⟨S800000, .i32⟩
  | 28 => ⟨S_, .f32⟩
  | 29 => ⟨S50000x128, .f32⟩
  | 30 => ⟨S800000x1, .i32⟩
  | 31 => ⟨S50000x128, .f32⟩
  | 32 => ⟨S800000x1, .f32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S800000x128, .f32⟩
  | 46 => ⟨S1x800000, .i32⟩
  | 47 => ⟨S800000, .i32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S50000, .i32⟩
  | 57 => ⟨S1x800000, .i32⟩
  | 58 => ⟨S800000, .i32⟩
  | 59 => ⟨S850000, .i32⟩
  | 60 => ⟨S1x800000, .i32⟩
  | 61 => ⟨S800000, .i32⟩
  | 62 => ⟨S850000, .i32⟩
  | 63 => ⟨S_, .f32⟩
  | 64 => ⟨S850000, .f32⟩
  | 65 => ⟨S_, .f32⟩
  | 66 => ⟨S50000, .f32⟩
  | 67 => ⟨S850000x1, .i32⟩
  | 68 => ⟨S50000, .f32⟩
  | 69 => ⟨S_, .f32⟩
  | 70 => ⟨S50000, .f32⟩
  | 71 => ⟨S50000, .i1⟩
  | 72 => ⟨S_, .f32⟩
  | 73 => ⟨S50000, .f32⟩
  | 74 => ⟨S50000, .f32⟩
  | 75 => ⟨S50000, .f32⟩
  | 76 => ⟨S_, .f32⟩
  | 77 => ⟨S_, .f32⟩
  | 78 => ⟨S50000, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S128x64, .f32⟩
  | 100 => ⟨S128x64, .f32⟩
  | 101 => ⟨S128x64, .f32⟩
  | 102 => ⟨S50000x64, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S850000x1, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x64, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S50000x64, .f32⟩
  | 12 => ⟨S50000x64, .f32⟩
  | 13 => ⟨S850000x1, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x64, .f32⟩
  | 23 => ⟨S850000x64, .f32⟩
  | 24 => ⟨S850000x64, .f32⟩
  | 25 => ⟨S_, .f32⟩
  | 26 => ⟨S50000x64, .f32⟩
  | 27 => ⟨S850000x1, .i32⟩
  | 28 => ⟨S50000x64, .f32⟩
  | 29 => ⟨S1x64, .f32⟩
  | 30 => ⟨S50000x64, .f32⟩
  | 31 => ⟨S_, .f32⟩
  | 32 => ⟨S512x64, .f32⟩
  | 33 => ⟨S50000x1, .i32⟩
  | 34 => ⟨S512x64, .f32⟩
  | 35 => ⟨S_, .f32⟩
  | 36 => ⟨S50000, .f32⟩
  | 37 => ⟨S_, .f32⟩
  | 38 => ⟨S512, .f32⟩
  | 39 => ⟨S50000x1, .i32⟩
  | 40 => ⟨S512, .f32⟩
  | 41 => ⟨S_, .f32⟩
  | 42 => ⟨S512, .f32⟩
  | 43 => ⟨S512, .f32⟩
  | 44 => ⟨S512x1, .f32⟩
  | 45 => ⟨S512x64, .f32⟩
  | 46 => ⟨S512x64, .f32⟩
  | 47 => ⟨S1x10, .f32⟩
  | 48 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S512x64, .f32⟩
  | .local _ .vmem, ⟨41, _⟩ => ⟨S64x10, .f32⟩
  | .local _ .vmem, ⟨42, _⟩ => ⟨S1x10, .f32⟩
  | .local _ .vmem, ⟨43, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_call0_v0 : Ref sig .tc := ⟨.hbm, 77, rfl⟩
abbrev main_call0_v1 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_17 : Ref sig .tc := ⟨.hbm, 123, rfl⟩
abbrev main_v90 : Ref sig .tc := ⟨.hbm, 124, rfl⟩
abbrev main_v91 : Ref sig .tc := ⟨.hbm, 125, rfl⟩
abbrev main_c_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_v106 : Ref sig .tc := ⟨.hbm, 143, rfl⟩
abbrev main_v107 : Ref sig .tc := ⟨.hbm, 144, rfl⟩
abbrev main_c_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_22 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_23 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_cst_25 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_26 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem1_0 : DmaSem sig := 41
abbrev cc6_sem2_0 : DmaSem sig := 42
abbrev cc6_sem3_0 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  bcast_S800000_S800000x1_0 : S800000.BroadcastsInDim S800000x1 (![0] : Fin 1 → Fin S800000x1.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000x1_S800000x128_0_1 : S800000x1.BroadcastsInDim S800000x128 (![0, 1] : Fin 2 → Fin S800000x128.rank)
  slices_S2x800000_S1x800000_0_0 : S2x800000.Slices ![0, 0] S1x800000
  bcast_S_S50000x128 : S_.BroadcastsInDim S50000x128 (![] : Fin 0 → Fin S50000x128.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S384x64_S128x64_0_0 : S384x64.Slices ![0, 0] S128x64
  slices_S384x64_S128x64_128_0 : S384x64.Slices ![128, 0] S128x64
  slices_S384x64_S128x64_256_0 : S384x64.Slices ![256, 0] S128x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x10.size a ≤ S512x10.size a
  hwx6_3 : ∀ i : grid6.Coords, EltTy.bits .f32 = 32 ∨ (Rect.block (s := S512x10) S512x10.size (cc6_transform_3 i) (hinb6_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v72) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v85) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v87) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v87) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v88) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v101) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v103) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v117) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v103) S2000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v119) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v131) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v132) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v133) S512x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S384x64 : Shape := ⟨2, ![384, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S800000x1 : Shape := ⟨2, ![800000, 1]⟩
abbrev S1x800000 : Shape := ⟨2, ![1, 800000]⟩
abbrev S_ : Shape := ⟨0, ![]⟩
abbrev S800000x128 : Shape := ⟨2, ![800000, 128]⟩
abbrev S50000x384 : Shape := ⟨2, ![50000, 384]⟩
abbrev S850000 : Shape := ⟨1, ![850000]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S384x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S800000x1, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x128, .f32⟩
  | 25 => ⟨S800000x128, .f32⟩
  | 26 => ⟨S1x800000, .i32⟩
  | 27 => ⟨S800000, .i32⟩
  | 28 => ⟨S_, .f32⟩
  | 29 => ⟨S50000x128, .f32⟩
  | 30 => ⟨S800000x1, .i32⟩
  | 31 => ⟨S50000x128, .f32⟩
  | 32 => ⟨S800000x1, .f32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S800000x128, .f32⟩
  | 46 => ⟨S1x800000, .i32⟩
  | 47 => ⟨S800000, .i32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S50000x384, .f32⟩
  | 57 => ⟨S50000, .i32⟩
  | 58 => ⟨S1x800000, .i32⟩
  | 59 => ⟨S800000, .i32⟩
  | 60 => ⟨S850000, .i32⟩
  | 61 => ⟨S1x800000, .i32⟩
  | 62 => ⟨S800000, .i32⟩
  | 63 => ⟨S850000, .i32⟩
  | 64 => ⟨S_, .f32⟩
  | 65 => ⟨S850000, .f32⟩
  | 66 => ⟨S_, .f32⟩
  | 67 => ⟨S50000, .f32⟩
  | 68 => ⟨S850000x1, .i32⟩
  | 69 => ⟨S50000, .f32⟩
  | 70 => ⟨S_, .f32⟩
  | 71 => ⟨S50000, .f32⟩
  | 72 => ⟨S50000, .i1⟩
  | 73 => ⟨S_, .f32⟩
  | 74 => ⟨S50000, .f32⟩
  | 75 => ⟨S50000, .f32⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S50000x64, .f32⟩
  | 101 => ⟨S850000x1, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x64, .f32⟩
  | 112 => ⟨S850000x64, .f32⟩
  | 113 => ⟨S_, .f32⟩
  | 114 => ⟨S50000x64, .f32⟩
  | 115 => ⟨S850000x1, .i32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S850000x1, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x64, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S850000x1, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x64, .f32⟩
  | 29 => ⟨S850000x64, .f32⟩
  | 30 => ⟨S850000x64, .f32⟩
  | 31 => ⟨S_, .f32⟩
  | 32 => ⟨S50000x64, .f32⟩
  | 33 => ⟨S850000x1, .i32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S512x64, .f32⟩
  | 48 => ⟨S50000x1, .i32⟩
  | 49 => ⟨S512x64, .f32⟩
  | 50 => ⟨S_, .f32⟩
  | 51 => ⟨S50000, .f32⟩
  | 52 => ⟨S_, .f32⟩
  | 53 => ⟨S512, .f32⟩
  | 54 => ⟨S50000x1, .i32⟩
  | 55 => ⟨S512, .f32⟩
  | 56 => ⟨S_, .f32⟩
  | 57 => ⟨S512, .f32⟩
  | 58 => ⟨S512, .f32⟩
  | 59 => ⟨S512x1, .f32⟩
  | 60 => ⟨S512x64, .f32⟩
  | 61 => ⟨S512x64, .f32⟩
  | 62 => ⟨S512x10, .f32⟩
  | 63 => ⟨S1x10, .f32⟩
  | 64 => ⟨S512x10, .f32⟩
  | 65 => ⟨S512x10, .f32⟩
  | 66 => ⟨S_, .f32⟩
  | 67 => ⟨S512, .f32⟩
  | 68 => ⟨S_, .f32⟩
  | 69 => ⟨S512, .f32⟩
  | 70 => ⟨S512, .f32⟩
  | 71 => ⟨S512x1, .f32⟩
  | 72 => ⟨S512x10, .f32⟩
  | 73 => ⟨S512x10, .f32⟩
  | 74 => ⟨S512x10, .f32⟩
  | 75 => ⟨S_, .f32⟩
  | 76 => ⟨S512, .f32⟩
  | 77 => ⟨S512x1, .f32⟩
  | 78 => ⟨S512x10, .f32⟩
  | 79 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_call0_v0 : Ref sig .tc := ⟨.hbm, 78, rfl⟩
abbrev main_call0_v1 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call1_cst : Ref sig .tc := ⟨.hbm, 120, rfl⟩
abbrev main_call1_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_17 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call2_cst : Ref sig .tc := ⟨.hbm, 143, rfl⟩
abbrev main_call2_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_20 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call3_cst : Ref sig .tc := ⟨.hbm, 166, rfl⟩
abbrev main_call3_v0 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_23 : Ref sig .tc := ⟨.hbm, 171, rfl⟩
abbrev main_v126 : Ref sig .tc := ⟨.hbm, 172, rfl⟩
abbrev main_v127 : Ref sig .tc := ⟨.hbm, 173, rfl⟩
abbrev main_cst_24 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_27 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_28 : Ref sig .tc := ⟨.hbm, 194, rfl⟩
abbrev main_v144 : Ref sig .tc := ⟨.hbm, 195, rfl⟩
abbrev main_cst_29 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_30 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000x1_S800000x128_0_1 : S800000x1.BroadcastsInDim S800000x128 (![0, 1] : Fin 2 → Fin S800000x128.rank)
  slices_S2x800000_S1x800000_0_0 : S2x800000.Slices ![0, 0] S1x800000
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x384_S384x64_S50000x64_1_0_0_1_n_n_wf : DotDims.WF S50000x384 S384x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelResult.lean ====
/-
  The idealized kernel's run with its RESULT named.  The kernel's @main is seven pipelined regions among
  stretches of host operations; its run ends with every unscoped buffer of a core holding the contents of the
  last segment boundary, a fold through the segments from the launch memory.  The frame claim keeps of that
  only the twelve argument arrays; here the result buffer (the softmax region's output array) is kept as well,
  at the same boundary's contents.  What that boundary holds there, as a function of the arguments, is read
  off the fold region by region in the modules that import this one.
-/
import proofs.«106835_j38929583571059_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result array at the
    last boundary's contents and the twelve argument arrays as launched. -/
theorem run : θ_run defs (onTc (τ := τ) (main (F := F))) ⟨m, fun _ => 0, ρ⟩ (fun r => ∀ c : Dev nD,
      r.2.mem ((c.tc : Thread nD τ).loc main_v133) = W14 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v133 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Result

end
-- ==== Proof.ChainBase.lean ====
/-
  Between the kernel's regions.  The kernel's run leaves, at each boundary between two of its segments, every
  buffer at a definite contents: a stretch of host operations rewrites the buffers its operations write and
  leaves the others; a region rewrites its output arrays and leaves everything else, its own input arrays
  included.  This module reads those boundaries up to the entry of the first region: each argument array is
  still as launched wherever a later segment reads it, and the buffers the first stretches compute — the two
  sparse products T1 and T2, the edge lists with the self loops appended, the symmetric normalisation of the
  edges, and the three row blocks of the first weight matrix — hold the reference's stages of the same names,
  because the two programs apply the same host operations to the same arguments.
-/
import proofs.«106835_j38929583571059_2_alg».proof.Proof.Gen.KernelIdeal.Frame
import proofs.«106835_j38929583571059_2_alg».proof.Proof.RefRead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A stretch of host operations leaves a buffer that none of them writes as it found it: each operation writes
    one buffer, and it is another. -/
macro "host_skip " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The arguments as launched, typed as the reference's stages take them -/

abbrev A0 : (⟨Cert.ReferenceIdeal.S50000x128, .f32⟩ : BufTy).Contents (Elt Ideal) := m ((c : Thread nD τ).loc main_arg0)
abbrev A1 : (⟨Cert.ReferenceIdeal.S2x800000, .i32⟩ : BufTy).Contents (Elt Ideal) := m ((c : Thread nD τ).loc main_arg1)
abbrev A2 : (⟨Cert.ReferenceIdeal.S800000, .f32⟩ : BufTy).Contents (Elt Ideal) := m ((c : Thread nD τ).loc main_arg2)
abbrev A3 : (⟨Cert.ReferenceIdeal.S50000, .i32⟩ : BufTy).Contents (Elt Ideal) := m ((c : Thread nD τ).loc main_arg3)
abbrev A4 : (⟨Cert.ReferenceIdeal.S384x64, .f32⟩ : BufTy).Contents (Elt Ideal) := m ((c : Thread nD τ).loc main_arg4)
abbrev A5 : (⟨Cert.ReferenceIdeal.S64, .f32⟩ : BufTy).Contents (Elt Ideal) := m ((c : Thread nD τ).loc main_arg5)
abbrev A6 : (⟨Cert.ReferenceIdeal.S64x64, .f32⟩ : BufTy).Contents (Elt Ideal) := m ((c : Thread nD τ).loc main_arg6)
abbrev A7 : (⟨Cert.ReferenceIdeal.S64, .f32⟩ : BufTy).Contents (Elt Ideal) := m ((c : Thread nD τ).loc main_arg7)
abbrev A8 : (⟨Cert.ReferenceIdeal.S64x64, .f32⟩ : BufTy).Contents (Elt Ideal) := m ((c : Thread nD τ).loc main_arg8)
abbrev A9 : (⟨Cert.ReferenceIdeal.S64, .f32⟩ : BufTy).Contents (Elt Ideal) := m ((c : Thread nD τ).loc main_arg9)
abbrev A10 : (⟨Cert.ReferenceIdeal.S64x10, .f32⟩ : BufTy).Contents (Elt Ideal) := m ((c : Thread nD τ).loc main_arg10)
abbrev A11 : (⟨Cert.ReferenceIdeal.S10, .f32⟩ : BufTy).Contents (Elt Ideal) := m ((c : Thread nD τ).loc main_arg11)

/-! ## A bias vector as one row: the kernel's reshape and the reference's broadcast are one array -/

/-- A [64] vector reshaped to [1, 64] and the same vector broadcast into [1, 64] along its one axis hold, at
    (0, j), the vector's entry j. -/
theorem row64 (x : (⟨1, ![64]⟩ : Shape).Idx → EReal) :
    shapeCast S1x64 x shapeCasts_S64_S1x64
      = broadcastInDim Cert.ReferenceIdeal.S1x64 ![1] Cert.ReferenceIdeal.Gen.bcast_S64_S1x64_1 x := by
  funext j
  obtain ⟨u, i, rfl⟩ : ∃ (u : Fin 1) (i : Fin 64), j = ix2 u i := ⟨j 0, j 1, eq_ix2 j⟩
  refine (shapeCast_a_1a_apply x shapeCasts_S64_S1x64 u i).trans ?_
  refine (broadcastInDim_apply _ Cert.ReferenceIdeal.Gen.bcast_S64_S1x64_1 x (ix2 u i) (ix1 i) (fun a => ?_)).symm
  match a with
  | ⟨0, _⟩ => show i.val = if (64 : Nat) = 1 then 0 else i.val; rw [if_neg (by decide)]

/-- The same for the [10] output bias. -/
theorem row10 (x : (⟨1, ![10]⟩ : Shape).Idx → EReal) :
    shapeCast S1x10 x shapeCasts_S10_S1x10
      = broadcastInDim Cert.ReferenceIdeal.S1x10 ![1] Cert.ReferenceIdeal.Gen.bcast_S10_S1x10_1 x := by
  funext j
  obtain ⟨u, i, rfl⟩ : ∃ (u : Fin 1) (i : Fin 10), j = ix2 u i := ⟨j 0, j 1, eq_ix2 j⟩
  refine (shapeCast_a_1a_apply x shapeCasts_S10_S1x10 u i).trans ?_
  refine (broadcastInDim_apply _ Cert.ReferenceIdeal.Gen.bcast_S10_S1x10_1 x (ix2 u i) (ix1 i) (fun a => ?_)).symm
  match a with
  | ⟨0, _⟩ => show i.val = if (10 : Nat) = 1 then 0 else i.val; rw [if_neg (by decide)]

/-! ## The entry of the first region: the arguments it and later segments read -/

theorem W3_arg0 : W3 m ρ c (Proc.devRef .tc main_arg0) = A0 m c :=
  calc W3 m ρ c (Proc.devRef .tc main_arg0)
    _ = W2 m ρ c (Proc.devRef .tc main_arg0) := by host_skip hostOps0_2
    _ = W1 m ρ c (Proc.devRef .tc main_arg0) := by host_skip hostOps0_1
    _ = W0 m ρ c (Proc.devRef .tc main_arg0) := by host_skip hostOps0
    _ = A0 m c := rfl

theorem W3_arg3 : W3 m ρ c (Proc.devRef .tc main_arg3) = A3 m c :=
  calc W3 m ρ c (Proc.devRef .tc main_arg3)
    _ = W2 m ρ c (Proc.devRef .tc main_arg3) := by host_skip hostOps0_2
    _ = W1 m ρ c (Proc.devRef .tc main_arg3) := by host_skip hostOps0_1
    _ = W0 m ρ c (Proc.devRef .tc main_arg3) := by host_skip hostOps0
    _ = A3 m c := rfl

theorem W3_arg5 : W3 m ρ c (Proc.devRef .tc main_arg5) = A5 m c :=
  calc W3 m ρ c (Proc.devRef .tc main_arg5)
    _ = W2 m ρ c (Proc.devRef .tc main_arg5) := by host_skip hostOps0_2
    _ = W1 m ρ c (Proc.devRef .tc main_arg5) := by host_skip hostOps0_1
    _ = W0 m ρ c (Proc.devRef .tc main_arg5) := by host_skip hostOps0
    _ = A5 m c := rfl

theorem W3_arg6 : W3 m ρ c (Proc.devRef .tc main_arg6) = A6 m c :=
  calc W3 m ρ c (Proc.devRef .tc main_arg6)
    _ = W2 m ρ c (Proc.devRef .tc main_arg6) := by host_skip hostOps0_2
    _ = W1 m ρ c (Proc.devRef .tc main_arg6) := by host_skip hostOps0_1
    _ = W0 m ρ c (Proc.devRef .tc main_arg6) := by host_skip hostOps0
    _ = A6 m c := rfl

theorem W3_arg7 : W3 m ρ c (Proc.devRef .tc main_arg7) = A7 m c :=
  calc W3 m ρ c (Proc.devRef .tc main_arg7)
    _ = W2 m ρ c (Proc.devRef .tc main_arg7) := by host_skip hostOps0_2
    _ = W1 m ρ c (Proc.devRef .tc main_arg7) := by host_skip hostOps0_1
    _ = W0 m ρ c (Proc.devRef .tc main_arg7) := by host_skip hostOps0
    _ = A7 m c := rfl

theorem W3_arg8 : W3 m ρ c (Proc.devRef .tc main_arg8) = A8 m c :=
  calc W3 m ρ c (Proc.devRef .tc main_arg8)
    _ = W2 m ρ c (Proc.devRef .tc main_arg8) := by host_skip hostOps0_2
    _ = W1 m ρ c (Proc.devRef .tc main_arg8) := by host_skip hostOps0_1
    _ = W0 m ρ c (Proc.devRef .tc main_arg8) := by host_skip hostOps0
    _ = A8 m c := rfl

theorem W3_arg9 : W3 m ρ c (Proc.devRef .tc main_arg9) = A9 m c :=
  calc W3 m ρ c (Proc.devRef .tc main_arg9)
    _ = W2 m ρ c (Proc.devRef .tc main_arg9) := by host_skip hostOps0_2
    _ = W1 m ρ c (Proc.devRef .tc main_arg9) := by host_skip hostOps0_1
    _ = W0 m ρ c (Proc.devRef .tc main_arg9) := by host_skip hostOps0
    _ = A9 m c := rfl

theorem W3_arg10 : W3 m ρ c (Proc.devRef .tc main_arg10) = A10 m c :=
  calc W3 m ρ c (Proc.devRef .tc main_arg10)
    _ = W2 m ρ c (Proc.devRef .tc main_arg10) := by host_skip hostOps0_2
    _ = W1 m ρ c (Proc.devRef .tc main_arg10) := by host_skip hostOps0_1
    _ = W0 m ρ c (Proc.devRef .tc main_arg10) := by host_skip hostOps0
    _ = A10 m c := rfl

theorem W3_arg11 : W3 m ρ c (Proc.devRef .tc main_arg11) = A11 m c :=
  calc W3 m ρ c (Proc.devRef .tc main_arg11)
    _ = W2 m ρ c (Proc.devRef .tc main_arg11) := by host_skip hostOps0_2
    _ = W1 m ρ c (Proc.devRef .tc main_arg11) := by host_skip hostOps0_1
    _ = W0 m ρ c (Proc.devRef .tc main_arg11) := by host_skip hostOps0
    _ = A11 m c := rfl

end Cert.KernelIdeal.Chain

end
-- ==== Proof.ChainA0.lean ====
/-
  The first stretch of host operations, read back.  After it the buffers it computed hold the reference's
  stages: the sparse products T1 = L·X (X gathered along the edges' columns, scaled by the edge values,
  scattered along their rows) and T2 = 2·L·T1 − X; the edges' rows and columns with the self loops appended; the
  test "the degree is positive" and the inverse square root of the degree raised to at least one, the degree
  being the count of edges into a node; and the zero that fills the normalisation where the degree is not
  positive.  The kernel's program and the reference apply the same operations to the same arguments here.
-/
import proofs.«106835_j38929583571059_2_alg».proof.Proof.ChainBase

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## What the first stretches computed -/

/-- T1 = L·X: the gather of X along the edges' columns, scaled by the edge values, scattered along their rows. -/
theorem W3_v16 : W3 m ρ c (Proc.devRef .tc main_v16) = Cert.ReferenceIdeal.ReadP.val_main_v16 (F := Ideal) (A0 m c) (A1 m c) (A2 m c) :=
  calc W3 m ρ c (Proc.devRef .tc main_v16)
    _ = W2 m ρ c (Proc.devRef .tc main_v16) := by host_skip hostOps0_2
    _ = W1 m ρ c (Proc.devRef .tc main_v16) := by host_skip hostOps0_1
    _ = Cert.ReferenceIdeal.ReadP.val_main_v16 (F := Ideal) (A0 m c) (A1 m c) (A2 m c) := by
      show StableHlo.after hostOps0 (W0 m ρ c) (Proc.devRef .tc main_v16) = _
      after_results_simp
      rfl

/-- T2 = 2·L·T1 − X. -/
theorem W3_v36 : W3 m ρ c (Proc.devRef .tc main_v36) = Cert.ReferenceIdeal.ReadP.val_main_v36 (F := Ideal) (A0 m c) (A1 m c) (A2 m c) :=
  calc W3 m ρ c (Proc.devRef .tc main_v36)
    _ = W2 m ρ c (Proc.devRef .tc main_v36) := by host_skip hostOps0_2
    _ = W1 m ρ c (Proc.devRef .tc main_v36) := by host_skip hostOps0_1
    _ = Cert.ReferenceIdeal.ReadP.val_main_v36 (F := Ideal) (A0 m c) (A1 m c) (A2 m c) := by
      show StableHlo.after hostOps0 (W0 m ρ c) (Proc.devRef .tc main_v36) = _
      after_results_simp
      rfl

/-- The edges' rows with the self loops appended, after the first stretch. -/
theorem W1_v40 : W1 m ρ c (Proc.devRef .tc main_v40) = Cert.ReferenceIdeal.ReadP.val_main_v41 (F := Ideal) (A1 m c) := by
  show StableHlo.after hostOps0 (W0 m ρ c) (Proc.devRef .tc main_v40) = _
  after_results_simp
  rfl

/-- The edges' columns with the self loops appended, after the first stretch. -/
theorem W1_v43 : W1 m ρ c (Proc.devRef .tc main_v43) = Cert.ReferenceIdeal.ReadP.val_main_v44 (F := Ideal) (A1 m c) := by
  show StableHlo.after hostOps0 (W0 m ρ c) (Proc.devRef .tc main_v43) = _
  after_results_simp
  rfl

/-- Where the degree (the count of edges into a node, self loop included) is positive. -/
theorem W1_v49 : W1 m ρ c (Proc.devRef .tc main_v49) = Cert.ReferenceIdeal.ReadP.val_main_v50 (F := Ideal) (A1 m c) := by
  show StableHlo.after hostOps0 (W0 m ρ c) (Proc.devRef .tc main_v49) = _
  after_results_simp
  rfl

/-- The inverse square root of the degree raised to at least one. -/
theorem W1_v52 : W1 m ρ c (Proc.devRef .tc main_v52) = Cert.ReferenceIdeal.ReadP.val_main_v53 (F := Ideal) (A1 m c) := by
  show StableHlo.after hostOps0 (W0 m ρ c) (Proc.devRef .tc main_v52) = _
  after_results_simp
  rfl

/-- The zero that fills dis where the degree is not positive. -/
theorem W1_cst9 : W1 m ρ c (Proc.devRef .tc main_cst_9) = Cert.ReferenceIdeal.ReadP.val_main_cst_9 (F := Ideal) := by
  show StableHlo.after hostOps0 (W0 m ρ c) (Proc.devRef .tc main_cst_9) = _
  after_results_simp
  rfl

end Cert.KernelIdeal.Chain

end
-- ==== Proof.ChainA1.lean ====
/-
  The second and third stretches, read back: dis — the inverse square root of the degree where the degree is
  positive, zero elsewhere (an outlined selection); the normalisation of every edge, dis gathered along the rows
  times dis gathered along the columns; and the three [128, 64] row blocks of the first weight matrix.  Each
  stretch is read from the contents the previous one left, taken as given.
-/
import proofs.«106835_j38929583571059_2_alg».proof.Proof.ChainA0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-- The outlined selection, read at plain contents: its three operations — the zero passed through, the zero
    broadcast over the nodes, the selection — compose to one selection between the inverse square roots and the
    broadcast zero; the typed references' transports are identities. -/
theorem where_val (pos : (⟨S50000, .i1⟩ : BufTy).Contents (Elt Ideal)) (rs : (⟨S50000, .f32⟩ : BufTy).Contents (Elt Ideal))
    (z : (⟨S_, .f32⟩ : BufTy).Contents (Elt Ideal)) :
    (TRef.of (sig := sig) (T := ⟨S50000, .f32⟩) main_v53).toBuf
      (select ((TRef.of (sig := sig) (T := ⟨S50000, .i1⟩) main_v49).ofBuf pos)
        ((TRef.of (sig := sig) (T := ⟨S50000, .f32⟩) main_v52).ofBuf rs)
        ((TRef.of (sig := sig) (T := ⟨S50000, .f32⟩) main_call0_v1).ofBuf
          ((TRef.of (sig := sig) (T := ⟨S50000, .f32⟩) main_call0_v1).toBuf
            (broadcastInDim S50000 ![] bcast_S_S50000
              ((TRef.of (sig := sig) (T := ⟨S_, .f32⟩) main_call0_v0).ofBuf
                ((TRef.of (sig := sig) (T := ⟨S_, .f32⟩) main_call0_v0).toBuf
                  (id ((TRef.of (sig := sig) (T := ⟨S_, .f32⟩) main_cst_9).ofBuf z))))))))
    = select pos rs (broadcastInDim S50000 ![] bcast_S_S50000 (id z)) := rfl

/-- dis: the inverse square root of the degree where the degree is positive, zero elsewhere (the outlined
    selection, the second stretch). -/
theorem W2_v53 : W2 m ρ c (Proc.devRef .tc main_v53) = Cert.ReferenceIdeal.ReadP.val_main_v54 (F := Ideal) (A1 m c) := by
  have h49 := W1_v49 m ρ c
  have h52 := W1_v52 m ρ c
  have h9 := W1_cst9 m ρ c
  show StableHlo.after hostOps0_1 (W1 m ρ c) (Proc.devRef .tc main_v53) = _
  revert h49 h52 h9
  generalize W1 m ρ c = V1
  intro h49 h52 h9
  after_results_simp
  rw [h49, h52, h9]
  refine (where_val _ _ _).trans ?_
  unfold Cert.ReferenceIdeal.ReadP.val_main_v54 Cert.ReferenceIdeal.ReadP.val_main_call0_v1 Cert.ReferenceIdeal.ReadP.val_main_call0_v0
  rfl

theorem W2_v40 : W2 m ρ c (Proc.devRef .tc main_v40) = Cert.ReferenceIdeal.ReadP.val_main_v41 (F := Ideal) (A1 m c) :=
  calc W2 m ρ c (Proc.devRef .tc main_v40)
    _ = W1 m ρ c (Proc.devRef .tc main_v40) := by host_skip hostOps0_1
    _ = _ := W1_v40 m ρ c

theorem W2_v43 : W2 m ρ c (Proc.devRef .tc main_v43) = Cert.ReferenceIdeal.ReadP.val_main_v44 (F := Ideal) (A1 m c) :=
  calc W2 m ρ c (Proc.devRef .tc main_v43)
    _ = W1 m ρ c (Proc.devRef .tc main_v43) := by host_skip hostOps0_1
    _ = _ := W1_v43 m ρ c

/-- The edges' rows with the self loops appended. -/
theorem W3_v40 : W3 m ρ c (Proc.devRef .tc main_v40) = Cert.ReferenceIdeal.ReadP.val_main_v41 (F := Ideal) (A1 m c) :=
  calc W3 m ρ c (Proc.devRef .tc main_v40)
    _ = W2 m ρ c (Proc.devRef .tc main_v40) := by host_skip hostOps0_2
    _ = _ := W2_v40 m ρ c

/-- The edges' columns with the self loops appended. -/
theorem W3_v43 : W3 m ρ c (Proc.devRef .tc main_v43) = Cert.ReferenceIdeal.ReadP.val_main_v44 (F := Ideal) (A1 m c) :=
  calc W3 m ρ c (Proc.devRef .tc main_v43)
    _ = W2 m ρ c (Proc.devRef .tc main_v43) := by host_skip hostOps0_2
    _ = _ := W2_v43 m ρ c

set_option maxHeartbeats 2000000 in
/-- The normalisation of every edge: dis[row]·dis[col] (the third stretch: dis gathered along the rows and along
    the columns, and the product of the two). -/
theorem W3_v68 : W3 m ρ c (Proc.devRef .tc main_v68) = Cert.ReferenceIdeal.ReadP.val_main_v69 (F := Ideal) (A1 m c) := by
  have h53 := W2_v53 m ρ c
  have h40 := W2_v40 m ρ c
  have h43 := W2_v43 m ρ c
  show StableHlo.after hostOps0_2 (W2 m ρ c) (Proc.devRef .tc main_v68) = _
  revert h53 h40 h43
  generalize W2 m ρ c = V2
  intro h53 h40 h43
  after_results_simp
  rw [h53, h40, h43]
  unfold Cert.ReferenceIdeal.ReadP.val_main_v69 Cert.ReferenceIdeal.ReadP.val_main_v61 Cert.ReferenceIdeal.ReadP.val_main_v68 Cert.ReferenceIdeal.ReadP.val_main_v60 Cert.ReferenceIdeal.ReadP.val_main_v67
    Cert.ReferenceIdeal.ReadP.val_main_v59 Cert.ReferenceIdeal.ReadP.val_main_v66 Cert.ReferenceIdeal.ReadP.val_main_v56 Cert.ReferenceIdeal.ReadP.val_main_v58 Cert.ReferenceIdeal.ReadP.val_main_v63 Cert.ReferenceIdeal.ReadP.val_main_v65
  generalize Cert.ReferenceIdeal.ReadP.val_main_v54 (F := Ideal) (A1 m c) = dis
  generalize Cert.ReferenceIdeal.ReadP.val_main_v41 (F := Ideal) (A1 m c) = row
  generalize Cert.ReferenceIdeal.ReadP.val_main_v44 (F := Ideal) (A1 m c) = col
  rfl

/-- The first weight matrix is still as launched after the second stretch. -/
theorem W2_arg4 : W2 m ρ c (Proc.devRef .tc main_arg4) = A4 m c :=
  calc W2 m ρ c (Proc.devRef .tc main_arg4)
    _ = W1 m ρ c (Proc.devRef .tc main_arg4) := by host_skip hostOps0_1
    _ = W0 m ρ c (Proc.devRef .tc main_arg4) := by host_skip hostOps0
    _ = A4 m c := rfl

/-- The three row blocks of the first weight matrix. -/
theorem W3_v69 : W3 m ρ c (Proc.devRef .tc main_v69)
    = extractStridedSlice S128x64 ![0, 0] (A4 m c) slices_S384x64_S128x64_0_0 := by
  have h4 := W2_arg4 m ρ c
  show StableHlo.after hostOps0_2 (W2 m ρ c) (Proc.devRef .tc main_v69) = _
  revert h4
  generalize W2 m ρ c = V2
  intro h4
  after_results_simp
  rw [h4]

theorem W3_v70 : W3 m ρ c (Proc.devRef .tc main_v70)
    = extractStridedSlice S128x64 ![128, 0] (A4 m c) slices_S384x64_S128x64_128_0 := by
  have h4 := W2_arg4 m ρ c
  show StableHlo.after hostOps0_2 (W2 m ρ c) (Proc.devRef .tc main_v70) = _
  revert h4
  generalize W2 m ρ c = V2
  intro h4
  after_results_simp
  rw [h4]

theorem W3_v71 : W3 m ρ c (Proc.devRef .tc main_v71)
    = extractStridedSlice S128x64 ![256, 0] (A4 m c) slices_S384x64_S128x64_256_0 := by
  have h4 := W2_arg4 m ρ c
  show StableHlo.after hostOps0_2 (W2 m ρ c) (Proc.devRef .tc main_v71) = _
  revert h4
  generalize W2 m ρ c = V2
  intro h4
  after_results_simp
  rw [h4]

end Cert.KernelIdeal.Chain

end
-- ==== Proof.Region0.lean ====
/-
  Region 0 of the kernel: three row-blocked matrix products, added.  The region walks 25 grid points; point t
  stages rows 2000·t … 2000·t + 1999 of three [50000, 128] arrays and the whole of three [128, 64] weights, and
  writes back (T0·Wa + T1·Wb) + T2·Wc (every operand cast to bf16, which at the exact reals changes nothing, each
  product into a zero accumulator) as rows 2000·t … of a [50000, 64] result.  An entry (r, j) of the result is
  therefore  Σ_{k<128} T0(r,k)·Wa(k,j) + Σ_{k<128} T1(r,k)·Wb(k,j) + Σ_{k<128} T2(r,k)·Wc(k,j).
  The reference joins the three arrays along the columns into one [50000, 384] array and takes one dot_general
  with the [384, 64] weight W, of which Wa, Wb, Wc are rows 0 … 127, 128 … 255, 256 … 383: its entry (r, j) is
  Σ_{k<384} cat(r,k)·W(k,j).  Column k of the joined array is column k, k − 128 or k − 256 of the first, second
  or third piece, so splitting the sum over 384 coordinates into three runs of 128 gives the body's three sums
  term by term; this uses only that addition on the extended reals is associative (a commutative monoid), no
  finiteness.  The 25 blocks of 2000 rows tile the result, so the array after the region IS that stage of the
  reference, given that the region's input arrays are the reference's operands.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's three products at an entry -/

/-- Entry (p, q) of one product into a zero accumulator: row p of the left block against column q of the right
    block, summed over the 128 contracted coordinates. -/
theorem mm_apply (a : FVec Ideal S2000x128 .bf16) (b : FVec Ideal S128x64 .bf16) (p : Fin 2000) (q : Fin 64) :
    matmul dot_S2000x128_S128x64_S2000x64_1_0_0_1_n_n none a b (constant S2000x64 .f32 0x00000000#32) (ix2 p q)
      = ∑ k : Fin 128, a (ix2 p k) * b (ix2 k q) := by
  refine (Ideal.matmul_constant_zero_apply dot_S2000x128_S128x64_S2000x64_1_0_0_1_n_n none a b (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ =>
        show (dot_S2000x128_S128x64_S2000x64_1_0_0_1_n_n.lhsIdx (ix2 p q) _ 0).val = p.val
        unfold DotDims.lhsIdx
        rw [dif_neg (show ¬(0 : Fin S2000x128.rank) ∈ dot_S2000x128_S128x64_S2000x64_1_0_0_1_n_n.lhsBatch by decide),
          dif_pos (show (0 : Fin S2000x128.rank) ∈ dot_S2000x128_S128x64_S2000x64_1_0_0_1_n_n.lhsNonContracting by decide)]
        rfl
      | ⟨1, _⟩ => exact (dot_S2000x128_S128x64_S2000x64_1_0_0_1_n_n.lhsIdx_val_of_single rfl (ix2 p q) _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl (ix2 p q) _).trans hk
      | ⟨1, _⟩ =>
        show (dot_S2000x128_S128x64_S2000x64_1_0_0_1_n_n.rhsIdx (ix2 p q) _ 1).val = q.val
        unfold DotDims.rhsIdx
        rw [dif_neg (show ¬(1 : Fin S128x64.rank) ∈ dot_S2000x128_S128x64_S2000x64_1_0_0_1_n_n.rhsBatch by decide),
          dif_pos (show (1 : Fin S128x64.rank) ∈ dot_S2000x128_S128x64_S2000x64_1_0_0_1_n_n.rhsNonContracting by decide)]
        rfl)
  rw [el, er]

/-- Entry (p, q) of the body's result: the three products' entries added, left to right.  The casts to bf16 and the
    reshapes of a block to its own shape change nothing at the exact reals. -/
theorem pay_apply (t0 t1 t2 : Vec Ideal S2000x128 .f32) (wa wb wc : Vec Ideal S128x64 .f32) (p : Fin 2000) (q : Fin 64) :
    k0_pay1 (F := Ideal) t0 t1 t2 wa wb wc (ix2 p q)
      = (∑ k : Fin 128, t0 (ix2 p k) * wa (ix2 k q) + ∑ k : Fin 128, t1 (ix2 p k) * wb (ix2 k q))
        + ∑ k : Fin 128, t2 (ix2 p k) * wc (ix2 k q) := by
  unfold k0_pay1
  simp only [shapeCast_self]
  refine (addf_apply _ _ (ix2 p q)).trans ?_
  refine congrArg₂ (· + ·) ((addf_apply _ _ (ix2 p q)).trans (congrArg₂ (· + ·) ?_ ?_)) ?_
  · exact mm_apply _ _ p q
  · exact mm_apply _ _ p q
  · exact mm_apply _ _ p q

/-! ## A sum over 384 coordinates in three runs of 128 -/

/-- Addition in a commutative monoid is associative, so a sum over 384 consecutive coordinates is the sum over the
    first 128, plus the sum over the next 128, plus the sum over the last 128. -/
theorem sum_split {M : Type*} [AddCommMonoid M] (f : Fin 384 → M) :
    ∑ k : Fin 384, f k = (∑ k : Fin 128, f ⟨k.val, by omega⟩ + ∑ k : Fin 128, f ⟨128 + k.val, by omega⟩)
      + ∑ k : Fin 128, f ⟨256 + k.val, by omega⟩ := by
  have h1 : ∑ k : Fin 384, f k = ∑ k : Fin 256, f (Fin.castAdd 128 k) + ∑ k : Fin 128, f (Fin.natAdd 256 k) :=
    Fin.sum_univ_add (a := 256) (b := 128) f
  have h2 : ∑ k : Fin 256, f (Fin.castAdd 128 k)
      = ∑ k : Fin 128, f (Fin.castAdd 128 (Fin.castAdd 128 k)) + ∑ k : Fin 128, f (Fin.castAdd 128 (Fin.natAdd 128 k)) :=
    Fin.sum_univ_add (a := 128) (b := 128) (fun k => f (Fin.castAdd 128 k))
  rw [h1, h2]
  rfl

/-! ## Reading the joined operand and the weight slices at an index -/

/-- The three [50000, 128] pieces joined along the columns, read in columns 0 … 127: the first piece at the same
    row and column. -/
theorem cat_read0 {α : Type} (y0 y1 y2 : Cert.ReferenceIdeal.S50000x128.Idx → α)
    (h : Shape.Concatenates [Cert.ReferenceIdeal.S50000x128, Cert.ReferenceIdeal.S50000x128, Cert.ReferenceIdeal.S50000x128] Cert.ReferenceIdeal.S50000x384 1)
    (j : Cert.ReferenceIdeal.S50000x384.Idx) (i : Cert.ReferenceIdeal.S50000x128.Idx)
    (e0 : (i 0).val = (j 0).val) (e1 : (i 1).val = (j 1).val) :
    concatenate Cert.ReferenceIdeal.S50000x384 1 [⟨Cert.ReferenceIdeal.S50000x128, y0⟩, ⟨Cert.ReferenceIdeal.S50000x128, y1⟩, ⟨Cert.ReferenceIdeal.S50000x128, y2⟩] h j = y0 i :=
  concatenate_apply_piece (t := Cert.ReferenceIdeal.S50000x384) 1 ([⟨Cert.ReferenceIdeal.S50000x128, y0⟩, ⟨Cert.ReferenceIdeal.S50000x128, y1⟩, ⟨Cert.ReferenceIdeal.S50000x128, y2⟩] : List ((s : Shape) × (s.Idx → α))) h j 0 (by show (0 : Nat) < 3; omega) Cert.ReferenceIdeal.S50000x128 y0 rfl rfl 0 rfl i
    (fun b hb => by
      match b with
      | ⟨0, _⟩ => exact e0
      | ⟨1, _⟩ => exact absurd rfl hb)
    (by show 0 + (i 1).val = (j 1).val; omega)

/-- … in columns 128 … 255: the second piece at the same row, 128 columns back. -/
theorem cat_read1 {α : Type} (y0 y1 y2 : Cert.ReferenceIdeal.S50000x128.Idx → α)
    (h : Shape.Concatenates [Cert.ReferenceIdeal.S50000x128, Cert.ReferenceIdeal.S50000x128, Cert.ReferenceIdeal.S50000x128] Cert.ReferenceIdeal.S50000x384 1)
    (j : Cert.ReferenceIdeal.S50000x384.Idx) (i : Cert.ReferenceIdeal.S50000x128.Idx)
    (e0 : (i 0).val = (j 0).val) (e1 : 128 + (i 1).val = (j 1).val) :
    concatenate Cert.ReferenceIdeal.S50000x384 1 [⟨Cert.ReferenceIdeal.S50000x128, y0⟩, ⟨Cert.ReferenceIdeal.S50000x128, y1⟩, ⟨Cert.ReferenceIdeal.S50000x128, y2⟩] h j = y1 i :=
  concatenate_apply_piece (t := Cert.ReferenceIdeal.S50000x384) 1 ([⟨Cert.ReferenceIdeal.S50000x128, y0⟩, ⟨Cert.ReferenceIdeal.S50000x128, y1⟩, ⟨Cert.ReferenceIdeal.S50000x128, y2⟩] : List ((s : Shape) × (s.Idx → α))) h j 1 (by show (1 : Nat) < 3; omega) Cert.ReferenceIdeal.S50000x128 y1 rfl rfl 128 rfl i
    (fun b hb => by
      match b with
      | ⟨0, _⟩ => exact e0
      | ⟨1, _⟩ => exact absurd rfl hb)
    (by show 128 + (i 1).val = (j 1).val; omega)

/-- … in columns 256 … 383: the third piece at the same row, 256 columns back. -/
theorem cat_read2 {α : Type} (y0 y1 y2 : Cert.ReferenceIdeal.S50000x128.Idx → α)
    (h : Shape.Concatenates [Cert.ReferenceIdeal.S50000x128, Cert.ReferenceIdeal.S50000x128, Cert.ReferenceIdeal.S50000x128] Cert.ReferenceIdeal.S50000x384 1)
    (j : Cert.ReferenceIdeal.S50000x384.Idx) (i : Cert.ReferenceIdeal.S50000x128.Idx)
    (e0 : (i 0).val = (j 0).val) (e1 : 256 + (i 1).val = (j 1).val) :
    concatenate Cert.ReferenceIdeal.S50000x384 1 [⟨Cert.ReferenceIdeal.S50000x128, y0⟩, ⟨Cert.ReferenceIdeal.S50000x128, y1⟩, ⟨Cert.ReferenceIdeal.S50000x128, y2⟩] h j = y2 i :=
  concatenate_apply_piece (t := Cert.ReferenceIdeal.S50000x384) 1 ([⟨Cert.ReferenceIdeal.S50000x128, y0⟩, ⟨Cert.ReferenceIdeal.S50000x128, y1⟩, ⟨Cert.ReferenceIdeal.S50000x128, y2⟩] : List ((s : Shape) × (s.Idx → α))) h j 2 (by show (2 : Nat) < 3; omega) Cert.ReferenceIdeal.S50000x128 y2 rfl rfl 256 rfl i
    (fun b hb => by
      match b with
      | ⟨0, _⟩ => exact e0
      | ⟨1, _⟩ => exact absurd rfl hb)
    (by show 256 + (i 1).val = (j 1).val; omega)

/-- A [128, 64] slice of the [384, 64] weight that starts at row off0, read at (r, c): the weight at (off0 + r, c). -/
theorem slice_read {α : Type} (off0 : Nat) (w : S384x64.Idx → α) (h : S384x64.Slices ![off0, 0] S128x64)
    (j : S128x64.Idx) (k : S384x64.Idx) (e0 : (k 0).val = off0 + (j 0).val) (e1 : (k 1).val = (j 1).val) :
    extractStridedSlice S128x64 ![off0, 0] w h j = w k :=
  extractStridedSlice_apply ![off0, 0] w h j k (fun a => by
    match a with
    | ⟨0, _⟩ => exact e0
    | ⟨1, _⟩ =>
      show (k 1).val = 0 + (j 1).val
      omega)

/-! ## The blocks' places in their arrays -/

/-- The printed index maps over the grid: the three row blocks move with the output's down the rows, the three
    weight blocks stay, and the output's block row is the point's number. -/
theorem idx_facts : ∀ t : Fin cfg0.N,
    (win0_0.index t (0 : Fin 2) = win0_6.index t (0 : Fin 2) ∧ win0_0.index t (1 : Fin 2) = 0)
    ∧ (win0_1.index t (0 : Fin 2) = win0_6.index t (0 : Fin 2) ∧ win0_1.index t (1 : Fin 2) = 0)
    ∧ (win0_2.index t (0 : Fin 2) = win0_6.index t (0 : Fin 2) ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (1 : Fin 2) = 0
    ∧ win0_6.index t (0 : Fin 2) ≤ 24 :=
  (by decide +kernel : ∀ t : Fin grid0.N, _)

/-- Every block row of the result is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

variable (V : (c : Dev nD) → (b : Ref sig .tc) → Buf (Elt Ideal) ((c : Thread nD τ).loc b))

/-- What point t writes back is block t of the reference's product stage, when the region's three row-blocked
    input arrays are the three pieces of that stage's joined left operand and its three weights are the three
    row ranges of that stage's right operand. -/
theorem flushed_eq (c : Dev nD) (t : Fin cfg0.N)
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x4 : (⟨Cert.ReferenceIdeal.S384x64, .f32⟩ : BufTy).Contents (Elt Ideal))
    (h0 : V c main_arg0 = x0)
    (h1 : V c main_v16 = Cert.ReferenceIdeal.ReadP.val_main_v16 (F := Ideal) x0 x1 x2)
    (h2 : V c main_v36 = Cert.ReferenceIdeal.ReadP.val_main_v36 (F := Ideal) x0 x1 x2)
    (ha : V c main_v69 = extractStridedSlice S128x64 ![0, 0] x4 slices_S384x64_S128x64_0_0)
    (hb : V c main_v70 = extractStridedSlice S128x64 ![128, 0] x4 slices_S384x64_S128x64_128_0)
    (hc : V c main_v71 = extractStridedSlice S128x64 ![256, 0] x4 slices_S384x64_S128x64_256_0) :
    (dat0 (F := Ideal) V c).flushed 6 t
      = ((cfg0.win 6).blk t).view.read (Elt Ideal) (Cert.ReferenceIdeal.ReadP.val_main_v70 (F := Ideal) x0 x1 x2 x4) := by
  show (cfg0.win 6).cut (grid0.coords t) ((dat0 (F := Ideal) V c).after 6 t) = _
  rw [after0_6]
  unfold out0_6
  rw [View.canon_unit_zero hz]
  simp only [View.ld_unit_zero (S := S2000x128) hz, View.ld_unit_zero (S := S128x64) hz]
  obtain ⟨⟨a00, a01⟩, ⟨a10, a11⟩, ⟨a20, a21⟩, ⟨a30, a31⟩, ⟨a40, a41⟩, ⟨a50, a51⟩, e61, e60⟩ := idx_facts t
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = Cert.ReferenceIdeal.ReadP.val_main_v70 (F := Ideal) x0 x1 x2 x4 (((cfg0.win 6).blk t).view.emb (ix2 p q))
  refine (pay_apply (iblk0 V c 0 t) (iblk0 V c 1 t) (iblk0 V c 2 t) (iblk0 V c 3 t) (iblk0 V c 4 t) (iblk0 V c 5 t) p q).trans ?_
  refine ((Cert.ReferenceIdeal.ReadP.val_main_v70_apply x0 x1 x2 x4 _).trans ?_).symm
  -- the reference's one sum over 384 coordinates, in three runs of 128: one run per product of the body
  refine (sum_split _).trans ?_
  refine congrArg₂ (· + ·) (congrArg₂ (· + ·) ?_ ?_) ?_
  · -- columns 0 … 127 of the joined operand against rows 0 … 127 of the weight
    refine Finset.sum_congr rfl fun k _ => ?_
    beta_reduce
    refine congrArg₂ (· * ·) ?_ ?_
    · show _ = V c main_arg0 (((cfg0.win 0).blk t).view.emb (ix2 p k))
      rw [h0]
      unfold Cert.ReferenceIdeal.ReadP.val_main_v37
      refine cat_read0 _ _ _ _ _ _ ?_ ?_
      · show win0_0.index t (0 : Fin 2) * 2000 + 1 * p.val = win0_6.index t (0 : Fin 2) * 2000 + 1 * p.val
        omega
      · show win0_0.index t (1 : Fin 2) * 128 + 1 * k.val = k.val
        omega
    · show _ = V c main_v69 (((cfg0.win 3).blk t).view.emb (ix2 k q))
      rw [ha]
      refine (slice_read 0 x4 _ _ _ ?_ ?_).symm
      · show k.val = 0 + (win0_3.index t (0 : Fin 2) * 128 + 1 * k.val)
        omega
      · show win0_6.index t (1 : Fin 2) * 64 + 1 * q.val = win0_3.index t (1 : Fin 2) * 64 + 1 * q.val
        omega
  · -- columns 128 … 255 of the joined operand against rows 128 … 255 of the weight
    refine Finset.sum_congr rfl fun k _ => ?_
    beta_reduce
    refine congrArg₂ (· * ·) ?_ ?_
    · show _ = V c main_v16 (((cfg0.win 1).blk t).view.emb (ix2 p k))
      rw [h1]
      unfold Cert.ReferenceIdeal.ReadP.val_main_v37
      refine cat_read1 _ _ _ _ _ _ ?_ ?_
      · show win0_1.index t (0 : Fin 2) * 2000 + 1 * p.val = win0_6.index t (0 : Fin 2) * 2000 + 1 * p.val
        omega
      · show 128 + (win0_1.index t (1 : Fin 2) * 128 + 1 * k.val) = 128 + k.val
        omega
    · show _ = V c main_v70 (((cfg0.win 4).blk t).view.emb (ix2 k q))
      rw [hb]
      refine (slice_read 128 x4 _ _ _ ?_ ?_).symm
      · show 128 + k.val = 128 + (win0_4.index t (0 : Fin 2) * 128 + 1 * k.val)
        omega
      · show win0_6.index t (1 : Fin 2) * 64 + 1 * q.val = win0_4.index t (1 : Fin 2) * 64 + 1 * q.val
        omega
  · -- columns 256 … 383 of the joined operand against rows 256 … 383 of the weight
    refine Finset.sum_congr rfl fun k _ => ?_
    beta_reduce
    refine congrArg₂ (· * ·) ?_ ?_
    · show _ = V c main_v36 (((cfg0.win 2).blk t).view.emb (ix2 p k))
      rw [h2]
      unfold Cert.ReferenceIdeal.ReadP.val_main_v37
      refine cat_read2 _ _ _ _ _ _ ?_ ?_
      · show win0_2.index t (0 : Fin 2) * 2000 + 1 * p.val = win0_6.index t (0 : Fin 2) * 2000 + 1 * p.val
        omega
      · show 256 + (win0_2.index t (1 : Fin 2) * 128 + 1 * k.val) = 256 + k.val
        omega
    · show _ = V c main_v71 (((cfg0.win 5).blk t).view.emb (ix2 k q))
      rw [hc]
      refine (slice_read 256 x4 _ _ _ ?_ ?_).symm
      · show 256 + k.val = 256 + (win0_5.index t (0 : Fin 2) * 128 + 1 * k.val)
        omega
      · show win0_6.index t (1 : Fin 2) * 64 + 1 * q.val = win0_5.index t (1 : Fin 2) * 64 + 1 * q.val
        omega

/-! ## The blocks tile the result -/

/-- An index of the result is in point t's block iff each coordinate is in the block's range on its axis. -/
theorem mem_blk (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v72).slice (win0_6.rect t)).set ↔ _
  rw [View.set_slice_whole, Rect.mem_set_unit]
  exact Iff.rfl

/-- Every index of the result lies in the block of the point numbered by its row divided by 2000. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 64 ≤ (i 1).val ∧ (i 1).val < win0_6.index t (1 : Fin 2) * 64 + 64
    omega

/-- The result array after the region is the reference's product stage. -/
theorem final (c : Dev nD)
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x4 : (⟨Cert.ReferenceIdeal.S384x64, .f32⟩ : BufTy).Contents (Elt Ideal))
    (h0 : V c main_arg0 = x0)
    (h1 : V c main_v16 = Cert.ReferenceIdeal.ReadP.val_main_v16 (F := Ideal) x0 x1 x2)
    (h2 : V c main_v36 = Cert.ReferenceIdeal.ReadP.val_main_v36 (F := Ideal) x0 x1 x2)
    (ha : V c main_v69 = extractStridedSlice S128x64 ![0, 0] x4 slices_S384x64_S128x64_0_0)
    (hb : V c main_v70 = extractStridedSlice S128x64 ![128, 0] x4 slices_S384x64_S128x64_128_0)
    (hc : V c main_v71 = extractStridedSlice S128x64 ![256, 0] x4 slices_S384x64_S128x64_256_0) :
    (dat0 (F := Ideal) V c).arrAt 6 cfg0.N = Cert.ReferenceIdeal.ReadP.val_main_v70 (F := Ideal) x0 x1 x2 x4 :=
  (dat0 (F := Ideal) V c).arrAt_eq_of_cover 6 _ (fun t _ => flushed_eq V c t x0 x1 x2 x4 h0 h1 h2 ha hb hc) cover

end Cert.KernelIdeal.Region0

end
-- ==== Proof.Region1.lean ====
/-
  Region 1 of the kernel: a bias and a rectifier, row block by row block.  Point t stages rows 2000·t … of the
  aggregated [50000, 64] array and the one [1, 64] bias row, and writes back max(x + b, 0) as rows 2000·t … of a
  [50000, 64] result: entry (r, j) is max(x(r, j) + b(0, j), 0).  The reference adds the bias broadcast over the
  rows and applies its rectifier, max(·, 0), to the whole array: the same value at every (r, j).  The 25 blocks
  tile the result, so the array after the region is that stage of the reference, given that the region's two
  input arrays are the reference's aggregate and its bias row.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's value at an entry -/

/-- Entry (p, q) of the body's result: the block's entry plus the bias row's entry of that column, cut below at
    zero. -/
theorem pay_apply (bb : Vec Ideal S1x64 .f32) (xb : Vec Ideal S2000x64 .f32) (p : Fin 2000) (q : Fin 64) :
    k1_pay1 (F := Ideal) bb xb (ix2 p q)
      = max (xb (ix2 p q) + bb (ix2 (0 : Fin 1) q)) (Ideal.ofBits .f32 0x00000000#32) := by
  unfold k1_pay1
  simp only [shapeCast_self]
  show max (xb (ix2 p q) + broadcastTo S2000x64 bb broadcasts_S1x64_S2000x64 (ix2 p q)) _ = _
  rw [broadcastTo_1b_ab_apply (a := 2000) (b := 64) bb broadcasts_S1x64_S2000x64 p q]
  rfl

/-! ## The blocks' places in their arrays -/

/-- The printed index maps over the grid: the aggregate's block moves with the output's down the rows and the
    bias row's block stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every block row of the result is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

variable (V : (c : Dev nD) → (b : Ref sig .tc) → Buf (Elt Ideal) ((c : Thread nD τ).loc b))

/-- What point t writes back is block t of the reference's rectified stage, when the region's two input arrays
    are that stage's aggregate and its bias row. -/
theorem flushed_eq (c : Dev nD) (t : Fin cfg1.N)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (ha : V c main_v85 = Cert.ReferenceIdeal.ReadP.val_main_v83 (F := Ideal) x0 x1 x2 x4)
    (hb : V c main_v86 = Cert.ReferenceIdeal.ReadP.val_main_v84 (F := Ideal) x5) :
    (dat1 (F := Ideal) V c).flushed 2 t
      = ((cfg1.win 2).blk t).view.read (Elt Ideal) (Cert.ReferenceIdeal.ReadP.val_main_v87 (F := Ideal) x0 x1 x2 x4 x5) := by
  show (cfg1.win 2).cut (grid1.coords t) ((dat1 (F := Ideal) V c).after 2 t) = _
  rw [after1_2]
  unfold out1_2
  rw [View.canon_unit_zero hz]
  simp only [View.ld_unit_zero (S := S2000x64) hz, View.ld_unit_zero (S := S1x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  rw [View.read_apply]
  refine (pay_apply (iblk1 V c 1 t) (iblk1 V c 0 t) p q).trans ?_
  rw [Cert.ReferenceIdeal.ReadP.val_main_v87_apply, Cert.ReferenceIdeal.ReadP.val_main_v86_apply, Cert.ReferenceIdeal.ReadP.val_main_v85_apply,
    Cert.ReferenceIdeal.ReadP.val_main_call1_v0_apply, Cert.ReferenceIdeal.ReadP.val_main_call1_cst_apply]
  have h1 : iblk1 V c 0 t (ix2 p q)
      = Cert.ReferenceIdeal.ReadP.val_main_v83 (F := Ideal) x0 x1 x2 x4 (((cfg1.win 2).blk t).view.emb (ix2 p q)) := by
    show V c main_v85 (((cfg1.win 0).blk t).view.emb (ix2 p q)) = _
    rw [ha]
    refine congrArg _ (funext fun a => Fin.ext ?_)
    match a with
    | ⟨0, _⟩ =>
      show win1_0.index t (0 : Fin 2) * 2000 + 1 * p.val = win1_2.index t (0 : Fin 2) * 2000 + 1 * p.val
      omega
    | ⟨1, _⟩ =>
      show win1_0.index t (1 : Fin 2) * 64 + 1 * q.val = win1_2.index t (1 : Fin 2) * 64 + 1 * q.val
      omega
  have h2 : iblk1 V c 1 t (ix2 (0 : Fin 1) q)
      = Cert.ReferenceIdeal.ReadP.val_main_v84 (F := Ideal) x5 (Cert.ReferenceIdeal.ReadP.idx_main_v85 (((cfg1.win 2).blk t).view.emb (ix2 p q))) := by
    show V c main_v86 (((cfg1.win 1).blk t).view.emb (ix2 (0 : Fin 1) q)) = _
    rw [hb]
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega
  rw [← h1, ← h2]
  rfl

/-! ## The blocks tile the result -/

/-- An index of the result is in point t's block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v87).slice (win1_2.rect t)).set ↔ _
  rw [View.set_slice_whole, Rect.mem_set_unit]
  exact Iff.rfl

/-- Every index of the result lies in the block of the point numbered by its row divided by 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- The result array after the region is the reference's rectified stage. -/
theorem final (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (ha : V c main_v85 = Cert.ReferenceIdeal.ReadP.val_main_v83 (F := Ideal) x0 x1 x2 x4)
    (hb : V c main_v86 = Cert.ReferenceIdeal.ReadP.val_main_v84 (F := Ideal) x5) :
    (dat1 (F := Ideal) V c).arrAt 2 cfg1.N = Cert.ReferenceIdeal.ReadP.val_main_v87 (F := Ideal) x0 x1 x2 x4 x5 :=
  (dat1 (F := Ideal) V c).arrAt_eq_of_cover 2 _ (fun t _ => flushed_eq V c t x0 x1 x2 x4 x5 ha hb) cover

end Cert.KernelIdeal.Region1

end
-- ==== Proof.Region2.lean ====
/-
  Region 2 of the kernel: a row-blocked matrix product.  The region walks 25 grid points; point t stages rows
  2000·t … 2000·t + 1999 of a [50000, 64] array and the whole [64, 64] weight, and writes back the product of
  the two (both cast to bf16, which at the exact reals changes nothing, into a zero accumulator) as rows
  2000·t … of a [50000, 64] result.  An entry (r, j) of the result is therefore the sum over k of
  x(r, k) · w(k, j): the same sum the reference's one whole-array dot_general has at (r, j).  The 25 blocks of
  2000 rows tile the result, so the array after the region IS that stage of the reference, given that the
  region's two input arrays are the reference's operands.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's product at an entry -/

/-- Entry (p, q) of the body's result: row p of the left block against column q of the right block, summed
    over the 64 contracted coordinates. -/
theorem pay_apply (xb : Vec Ideal S2000x64 .f32) (wb : Vec Ideal S64x64 .f32) (p : Fin 2000) (q : Fin 64) :
    k2_pay1 (F := Ideal) xb wb (ix2 p q) = ∑ k : Fin 64, xb (ix2 p k) * wb (ix2 k q) := by
  unfold k2_pay1
  refine (Ideal.matmul_constant_zero_apply dot_S2000x64_S64x64_S2000x64_1_0_0_1_n_n none _ _ (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ =>
        show (dot_S2000x64_S64x64_S2000x64_1_0_0_1_n_n.lhsIdx (ix2 p q) _ 0).val = p.val
        unfold DotDims.lhsIdx
        rw [dif_neg (show ¬(0 : Fin S2000x64.rank) ∈ dot_S2000x64_S64x64_S2000x64_1_0_0_1_n_n.lhsBatch by decide),
          dif_pos (show (0 : Fin S2000x64.rank) ∈ dot_S2000x64_S64x64_S2000x64_1_0_0_1_n_n.lhsNonContracting by decide)]
        rfl
      | ⟨1, _⟩ => exact (dot_S2000x64_S64x64_S2000x64_1_0_0_1_n_n.lhsIdx_val_of_single rfl (ix2 p q) _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (dot_S2000x64_S64x64_S2000x64_1_0_0_1_n_n.rhsIdx_val_of_single rfl (ix2 p q) _).trans hk
      | ⟨1, _⟩ =>
        show (dot_S2000x64_S64x64_S2000x64_1_0_0_1_n_n.rhsIdx (ix2 p q) _ 1).val = q.val
        unfold DotDims.rhsIdx
        rw [dif_neg (show ¬(1 : Fin S64x64.rank) ∈ dot_S2000x64_S64x64_S2000x64_1_0_0_1_n_n.rhsBatch by decide),
          dif_pos (show (1 : Fin S64x64.rank) ∈ dot_S2000x64_S64x64_S2000x64_1_0_0_1_n_n.rhsNonContracting by decide)]
        rfl)
  rw [el, er, shapeCast_self]
  rfl

/-! ## The blocks' places in their arrays -/

/-- The printed index maps over the grid: the left operand's block moves with the output's down the rows, the
    weight's block stays, and the output's block row is the point's number. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every block row of the result is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

variable (V : (c : Dev nD) → (b : Ref sig .tc) → Buf (Elt Ideal) ((c : Thread nD τ).loc b))

/-- What point t writes back is block t of the reference's product stage, when the region's two input arrays are
    that stage's operands. -/
theorem flushed_eq (c : Dev nD) (t : Fin cfg2.N)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (hx : V c main_v87 = Cert.ReferenceIdeal.ReadP.val_main_v87 (F := Ideal) x0 x1 x2 x4 x5)
    (hw : V c main_arg6 = x6) :
    (dat2 (F := Ideal) V c).flushed 2 t
      = ((cfg2.win 2).blk t).view.read (Elt Ideal) (Cert.ReferenceIdeal.ReadP.val_main_v88 (F := Ideal) x0 x1 x2 x4 x5 x6) := by
  show (cfg2.win 2).cut (grid2.coords t) ((dat2 (F := Ideal) V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  -- the block of the reference's stage, read at (p, q): the stage at the block's place for (p, q)
  rw [View.read_apply, cast_eq]
  refine (pay_apply (iblk2 V c 0 t) (iblk2 V c 1 t) p q).trans ?_
  refine ((Cert.ReferenceIdeal.ReadP.val_main_v88_apply x0 x1 x2 x4 x5 x6 _).trans ?_).symm
  refine Finset.sum_congr rfl fun k _ => ?_
  refine congrArg₂ (· * ·) ?_ ?_
  · -- the left operand at (block row of the entry, k) is the staged block's entry (p, k)
    show _ = V c main_v87 (((cfg2.win 0).blk t).view.emb (ix2 p k))
    rw [hx]
    refine congrArg (Cert.ReferenceIdeal.ReadP.val_main_v87 (F := Ideal) x0 x1 x2 x4 x5) (funext fun a => Fin.ext ?_)
    match a with
    | ⟨0, _⟩ =>
      show win2_2.index t (0 : Fin 2) * 2000 + 1 * p.val = win2_0.index t (0 : Fin 2) * 2000 + 1 * p.val
      omega
    | ⟨1, _⟩ =>
      show k.val = win2_0.index t (1 : Fin 2) * 64 + 1 * k.val
      omega
  · -- the weight at (k, column of the entry) is the staged weight's entry (k, q)
    show _ = V c main_arg6 (((cfg2.win 1).blk t).view.emb (ix2 k q))
    rw [hw]
    refine congrArg x6 (funext fun a => Fin.ext ?_)
    match a with
    | ⟨0, _⟩ =>
      show k.val = win2_1.index t (0 : Fin 2) * 64 + 1 * k.val
      omega
    | ⟨1, _⟩ =>
      show win2_2.index t (1 : Fin 2) * 64 + 1 * q.val = win2_1.index t (1 : Fin 2) * 64 + 1 * q.val
      omega

/-! ## The blocks tile the result -/

/-- An index of the result is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v88).slice (win2_2.rect t)).set ↔ _
  rw [View.set_slice_whole, Rect.mem_set_unit]
  exact Iff.rfl

/-- Every index of the result lies in the block of the point numbered by its row divided by 2000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- The result array after the region is the reference's product stage. -/
theorem final (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (hx : V c main_v87 = Cert.ReferenceIdeal.ReadP.val_main_v87 (F := Ideal) x0 x1 x2 x4 x5)
    (hw : V c main_arg6 = x6) :
    (dat2 (F := Ideal) V c).arrAt 2 cfg2.N = Cert.ReferenceIdeal.ReadP.val_main_v88 (F := Ideal) x0 x1 x2 x4 x5 x6 :=
  (dat2 (F := Ideal) V c).arrAt_eq_of_cover 2 _ (fun t _ => flushed_eq V c t x0 x1 x2 x4 x5 x6 hx hw) cover

end Cert.KernelIdeal.Region2

end
-- ==== Proof.ChainA.lean ====
/-
  The first layer.  The first region leaves the reference's product of the concatenated Chebyshev features with
  the first weight matrix; the host stretch after it gathers that product along the rows, scales it by the
  normalisation and scatters it along the columns, exactly as the reference does, and presents the bias as one
  row; the second region adds the bias and rectifies; the third multiplies by the second weight matrix.
-/
import proofs.«106835_j38929583571059_2_alg».proof.Proof.ChainA1
import proofs.«106835_j38929583571059_2_alg».proof.Proof.Region0
import proofs.«106835_j38929583571059_2_alg».proof.Proof.Region1
import proofs.«106835_j38929583571059_2_alg».proof.Proof.Region2

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## The first region: the feature product -/

/-- After the first region its output array holds the reference's product of the concatenated features with the
    first weight matrix. -/
theorem W4_v72 : W4 m ρ c (Proc.devRef .tc main_v72)
    = Cert.ReferenceIdeal.ReadP.val_main_v70 (F := Ideal) (A0 m c) (A1 m c) (A2 m c) (A4 m c) :=
  (W4_arr m ρ c 6).trans
    (Cert.KernelIdeal.Region0.final (V3 m ρ) c (A0 m c) (A1 m c) (A2 m c) (A4 m c)
      (W3_arg0 m ρ c) (W3_v16 m ρ c) (W3_v36 m ρ c) (W3_v69 m ρ c) (W3_v70 m ρ c) (W3_v71 m ρ c))

/-- The first region writes none of the edge buffers. -/
theorem W4_v68 : W4 m ρ c (Proc.devRef .tc main_v68) = Cert.ReferenceIdeal.ReadP.val_main_v69 (F := Ideal) (A1 m c) :=
  (W4_of_ne m ρ c main_v68 (by decide)).trans (W3_v68 m ρ c)
theorem W4_v40 : W4 m ρ c (Proc.devRef .tc main_v40) = Cert.ReferenceIdeal.ReadP.val_main_v41 (F := Ideal) (A1 m c) :=
  (W4_of_ne m ρ c main_v40 (by decide)).trans (W3_v40 m ρ c)
theorem W4_v43 : W4 m ρ c (Proc.devRef .tc main_v43) = Cert.ReferenceIdeal.ReadP.val_main_v44 (F := Ideal) (A1 m c) :=
  (W4_of_ne m ρ c main_v43 (by decide)).trans (W3_v43 m ρ c)
theorem W4_arg5 : W4 m ρ c (Proc.devRef .tc main_arg5) = A5 m c :=
  (W4_of_ne m ρ c main_arg5 (by decide)).trans (W3_arg5 m ρ c)

/-! ## The first aggregation and its bias row -/

set_option maxHeartbeats 2000000 in
/-- The stretch after the first region leaves the reference's first aggregate: the product gathered along the
    rows, scaled by the normalisation, scattered along the columns. -/
theorem W5_v85 : W5 m ρ c (Proc.devRef .tc main_v85)
    = Cert.ReferenceIdeal.ReadP.val_main_v83 (F := Ideal) (A0 m c) (A1 m c) (A2 m c) (A4 m c) := by
  show StableHlo.after hostOps1 (W4 m ρ c) (Proc.devRef .tc main_v85) = _
  after_results_simp
  rw [W4_v72 m ρ c, W4_v68 m ρ c, W4_v40 m ρ c, W4_v43 m ρ c]
  rfl

/-- … and the first bias as one row. -/
theorem W5_v86 : W5 m ρ c (Proc.devRef .tc main_v86) = Cert.ReferenceIdeal.ReadP.val_main_v84 (F := Ideal) (A5 m c) := by
  show StableHlo.after hostOps1 (W4 m ρ c) (Proc.devRef .tc main_v86) = _
  after_results
  rw [W4_arg5 m ρ c]
  exact row64 _

/-! ## The second region: bias and rectifier; the third: the second product -/

/-- After the second region its output array holds the reference's first layer output. -/
theorem W6_v87 : W6 m ρ c (Proc.devRef .tc main_v87)
    = Cert.ReferenceIdeal.ReadP.val_main_v87 (F := Ideal) (A0 m c) (A1 m c) (A2 m c) (A4 m c) (A5 m c) :=
  (W6_arr m ρ c 2).trans
    (Cert.KernelIdeal.Region1.final (V5 m ρ) c (A0 m c) (A1 m c) (A2 m c) (A4 m c) (A5 m c) (W5_v85 m ρ c) (W5_v86 m ρ c))

/-- The second weight matrix is still as launched when the third region reads it. -/
theorem W6_arg6 : W6 m ρ c (Proc.devRef .tc main_arg6) = A6 m c :=
  calc W6 m ρ c (Proc.devRef .tc main_arg6)
    _ = W5 m ρ c (Proc.devRef .tc main_arg6) := W6_of_ne m ρ c main_arg6 (by decide)
    _ = W4 m ρ c (Proc.devRef .tc main_arg6) := by host_skip hostOps1
    _ = W3 m ρ c (Proc.devRef .tc main_arg6) := W4_of_ne m ρ c main_arg6 (by decide)
    _ = A6 m c := W3_arg6 m ρ c

/-- After the third region its output array holds the reference's second product. -/
theorem W7_v88 : W7 m ρ c (Proc.devRef .tc main_v88)
    = Cert.ReferenceIdeal.ReadP.val_main_v88 (F := Ideal) (A0 m c) (A1 m c) (A2 m c) (A4 m c) (A5 m c) (A6 m c) :=
  (W7_arr m ρ c 2).trans
    (Cert.KernelIdeal.Region2.final (V6 m ρ) c (A0 m c) (A1 m c) (A2 m c) (A4 m c) (A5 m c) (A6 m c) (W6_v87 m ρ c) (W6_arg6 m ρ c))

end Cert.KernelIdeal.Chain

end
-- ==== Proof.Region3.lean ====
/-
  Region 3 of the kernel: the second layer's bias and rectifier, row block by row block — the same body as the first layer's.  Point t stages rows 2000·t … of the
  aggregated [50000, 64] array and the one [1, 64] bias row, and writes back max(x + b, 0) as rows 2000·t … of a
  [50000, 64] result: entry (r, j) is max(x(r, j) + b(0, j), 0).  The reference adds the bias broadcast over the
  rows and applies its rectifier, max(·, 0), to the whole array: the same value at every (r, j).  The 25 blocks
  tile the result, so the array after the region is that stage of the reference, given that the region's two
  input arrays are the reference's aggregate and its bias row.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's value at an entry -/

/-- Entry (p, q) of the body's result: the block's entry plus the bias row's entry of that column, cut below at
    zero. -/
theorem pay_apply (bb : Vec Ideal S1x64 .f32) (xb : Vec Ideal S2000x64 .f32) (p : Fin 2000) (q : Fin 64) :
    k3_pay1 (F := Ideal) bb xb (ix2 p q)
      = max (xb (ix2 p q) + bb (ix2 (0 : Fin 1) q)) (Ideal.ofBits .f32 0x00000000#32) := by
  unfold k3_pay1
  simp only [shapeCast_self]
  show max (xb (ix2 p q) + broadcastTo S2000x64 bb broadcasts_S1x64_S2000x64 (ix2 p q)) _ = _
  rw [broadcastTo_1b_ab_apply (a := 2000) (b := 64) bb broadcasts_S1x64_S2000x64 p q]
  rfl

/-! ## The blocks' places in their arrays -/

/-- The printed index maps over the grid: the aggregate's block moves with the output's down the rows and the
    bias row's block stays. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every block row of the result is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

variable (V : (c : Dev nD) → (b : Ref sig .tc) → Buf (Elt Ideal) ((c : Thread nD τ).loc b))

/-- What point t writes back is block t of the reference's rectified stage, when the region's two input arrays
    are that stage's aggregate and its bias row. -/
theorem flushed_eq (c : Dev nD) (t : Fin cfg3.N)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (ha : V c main_v101 = Cert.ReferenceIdeal.ReadP.val_main_v101 (F := Ideal) x0 x1 x2 x4 x5 x6)
    (hb : V c main_v102 = Cert.ReferenceIdeal.ReadP.val_main_v102 (F := Ideal) x7) :
    (dat3 (F := Ideal) V c).flushed 2 t
      = ((cfg3.win 2).blk t).view.read (Elt Ideal) (Cert.ReferenceIdeal.ReadP.val_main_v105 (F := Ideal) x0 x1 x2 x4 x5 x6 x7) := by
  show (cfg3.win 2).cut (grid3.coords t) ((dat3 (F := Ideal) V c).after 2 t) = _
  rw [after3_2]
  unfold out3_2
  rw [View.canon_unit_zero hz]
  simp only [View.ld_unit_zero (S := S2000x64) hz, View.ld_unit_zero (S := S1x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  rw [View.read_apply]
  refine (pay_apply (iblk3 V c 1 t) (iblk3 V c 0 t) p q).trans ?_
  rw [Cert.ReferenceIdeal.ReadP.val_main_v105_apply, Cert.ReferenceIdeal.ReadP.val_main_v104_apply, Cert.ReferenceIdeal.ReadP.val_main_v103_apply,
    Cert.ReferenceIdeal.ReadP.val_main_call2_v0_apply, Cert.ReferenceIdeal.ReadP.val_main_call2_cst_apply]
  have h1 : iblk3 V c 0 t (ix2 p q)
      = Cert.ReferenceIdeal.ReadP.val_main_v101 (F := Ideal) x0 x1 x2 x4 x5 x6 (((cfg3.win 2).blk t).view.emb (ix2 p q)) := by
    show V c main_v101 (((cfg3.win 0).blk t).view.emb (ix2 p q)) = _
    rw [ha]
    refine congrArg _ (funext fun a => Fin.ext ?_)
    match a with
    | ⟨0, _⟩ =>
      show win3_0.index t (0 : Fin 2) * 2000 + 1 * p.val = win3_2.index t (0 : Fin 2) * 2000 + 1 * p.val
      omega
    | ⟨1, _⟩ =>
      show win3_0.index t (1 : Fin 2) * 64 + 1 * q.val = win3_2.index t (1 : Fin 2) * 64 + 1 * q.val
      omega
  have h2 : iblk3 V c 1 t (ix2 (0 : Fin 1) q)
      = Cert.ReferenceIdeal.ReadP.val_main_v102 (F := Ideal) x7 (Cert.ReferenceIdeal.ReadP.idx_main_v103 (((cfg3.win 2).blk t).view.emb (ix2 p q))) := by
    show V c main_v102 (((cfg3.win 1).blk t).view.emb (ix2 (0 : Fin 1) q)) = _
    rw [hb]
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 64 + 1 * q.val = win3_2.index t (1 : Fin 2) * 64 + 1 * q.val
      omega
  rw [← h1, ← h2]
  rfl

/-! ## The blocks tile the result -/

/-- An index of the result is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v103).slice (win3_2.rect t)).set ↔ _
  rw [View.set_slice_whole, Rect.mem_set_unit]
  exact Iff.rfl

/-- Every index of the result lies in the block of the point numbered by its row divided by 2000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 64 ≤ (i 1).val ∧ (i 1).val < win3_2.index t (1 : Fin 2) * 64 + 64
    omega

/-- The result array after the region is the reference's rectified stage. -/
theorem final (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (ha : V c main_v101 = Cert.ReferenceIdeal.ReadP.val_main_v101 (F := Ideal) x0 x1 x2 x4 x5 x6)
    (hb : V c main_v102 = Cert.ReferenceIdeal.ReadP.val_main_v102 (F := Ideal) x7) :
    (dat3 (F := Ideal) V c).arrAt 2 cfg3.N = Cert.ReferenceIdeal.ReadP.val_main_v105 (F := Ideal) x0 x1 x2 x4 x5 x6 x7 :=
  (dat3 (F := Ideal) V c).arrAt_eq_of_cover 2 _ (fun t _ => flushed_eq V c t x0 x1 x2 x4 x5 x6 x7 ha hb) cover

end Cert.KernelIdeal.Region3

end
-- ==== Proof.Region4.lean ====
/-
  Region 4 of the kernel: the third layer's row-blocked matrix product, the same body as the second layer's.  The region walks 25 grid points; point t stages rows
  2000·t … 2000·t + 1999 of a [50000, 64] array and the whole [64, 64] weight, and writes back the product of
  the two (both cast to bf16, which at the exact reals changes nothing, into a zero accumulator) as rows
  2000·t … of a [50000, 64] result.  An entry (r, j) of the result is therefore the sum over k of
  x(r, k) · w(k, j): the same sum the reference's one whole-array dot_general has at (r, j).  The 25 blocks of
  2000 rows tile the result, so the array after the region IS that stage of the reference, given that the
  region's two input arrays are the reference's operands.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's product at an entry -/

/-- Entry (p, q) of the body's result: row p of the left block against column q of the right block, summed
    over the 64 contracted coordinates. -/
theorem pay_apply (xb : Vec Ideal S2000x64 .f32) (wb : Vec Ideal S64x64 .f32) (p : Fin 2000) (q : Fin 64) :
    k4_pay1 (F := Ideal) xb wb (ix2 p q) = ∑ k : Fin 64, xb (ix2 p k) * wb (ix2 k q) := by
  unfold k4_pay1
  refine (Ideal.matmul_constant_zero_apply dot_S2000x64_S64x64_S2000x64_1_0_0_1_n_n none _ _ (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ =>
        show (dot_S2000x64_S64x64_S2000x64_1_0_0_1_n_n.lhsIdx (ix2 p q) _ 0).val = p.val
        unfold DotDims.lhsIdx
        rw [dif_neg (show ¬(0 : Fin S2000x64.rank) ∈ dot_S2000x64_S64x64_S2000x64_1_0_0_1_n_n.lhsBatch by decide),
          dif_pos (show (0 : Fin S2000x64.rank) ∈ dot_S2000x64_S64x64_S2000x64_1_0_0_1_n_n.lhsNonContracting by decide)]
        rfl
      | ⟨1, _⟩ => exact (dot_S2000x64_S64x64_S2000x64_1_0_0_1_n_n.lhsIdx_val_of_single rfl (ix2 p q) _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (dot_S2000x64_S64x64_S2000x64_1_0_0_1_n_n.rhsIdx_val_of_single rfl (ix2 p q) _).trans hk
      | ⟨1, _⟩ =>
        show (dot_S2000x64_S64x64_S2000x64_1_0_0_1_n_n.rhsIdx (ix2 p q) _ 1).val = q.val
        unfold DotDims.rhsIdx
        rw [dif_neg (show ¬(1 : Fin S64x64.rank) ∈ dot_S2000x64_S64x64_S2000x64_1_0_0_1_n_n.rhsBatch by decide),
          dif_pos (show (1 : Fin S64x64.rank) ∈ dot_S2000x64_S64x64_S2000x64_1_0_0_1_n_n.rhsNonContracting by decide)]
        rfl)
  rw [el, er, shapeCast_self]
  rfl

/-! ## The blocks' places in their arrays -/

/-- The printed index maps over the grid: the left operand's block moves with the output's down the rows, the
    weight's block stays, and the output's block row is the point's number. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 24 :=
  (by decide +kernel : ∀ t : Fin grid4.N, _)

/-- Every block row of the result is some point's. -/
theorem idx_onto : ∀ q0 : Fin 25, ∃ t : Fin cfg4.N, win4_2.index t = ![q0.val, 0] :=
  (by decide +kernel : ∀ q0 : Fin 25, ∃ t : Fin grid4.N, win4_2.index t = ![q0.val, 0])

variable (V : (c : Dev nD) → (b : Ref sig .tc) → Buf (Elt Ideal) ((c : Thread nD τ).loc b))

/-- What point t writes back is block t of the reference's product stage, when the region's two input arrays are
    that stage's operands. -/
theorem flushed_eq (c : Dev nD) (t : Fin cfg4.N)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (hx : V c main_v103 = Cert.ReferenceIdeal.ReadP.val_main_v105 (F := Ideal) x0 x1 x2 x4 x5 x6 x7)
    (hw : V c main_arg8 = x8) :
    (dat4 (F := Ideal) V c).flushed 2 t
      = ((cfg4.win 2).blk t).view.read (Elt Ideal) (Cert.ReferenceIdeal.ReadP.val_main_v106 (F := Ideal) x0 x1 x2 x4 x5 x6 x7 x8) := by
  show (cfg4.win 2).cut (grid4.coords t) ((dat4 (F := Ideal) V c).after 2 t) = _
  rw [after4_2]
  unfold out4_2
  rw [View.canon_unit_zero hz]
  simp only [View.ld_unit_zero (S := S2000x64) hz, View.ld_unit_zero (S := S64x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  -- the block of the reference's stage, read at (p, q): the stage at the block's place for (p, q)
  rw [View.read_apply, cast_eq]
  refine (pay_apply (iblk4 V c 0 t) (iblk4 V c 1 t) p q).trans ?_
  refine ((Cert.ReferenceIdeal.ReadP.val_main_v106_apply x0 x1 x2 x4 x5 x6 x7 x8 _).trans ?_).symm
  refine Finset.sum_congr rfl fun k _ => ?_
  refine congrArg₂ (· * ·) ?_ ?_
  · -- the left operand at (block row of the entry, k) is the staged block's entry (p, k)
    show _ = V c main_v103 (((cfg4.win 0).blk t).view.emb (ix2 p k))
    rw [hx]
    refine congrArg (Cert.ReferenceIdeal.ReadP.val_main_v105 (F := Ideal) x0 x1 x2 x4 x5 x6 x7) (funext fun a => Fin.ext ?_)
    match a with
    | ⟨0, _⟩ =>
      show win4_2.index t (0 : Fin 2) * 2000 + 1 * p.val = win4_0.index t (0 : Fin 2) * 2000 + 1 * p.val
      omega
    | ⟨1, _⟩ =>
      show k.val = win4_0.index t (1 : Fin 2) * 64 + 1 * k.val
      omega
  · -- the weight at (k, column of the entry) is the staged weight's entry (k, q)
    show _ = V c main_arg8 (((cfg4.win 1).blk t).view.emb (ix2 k q))
    rw [hw]
    refine congrArg x8 (funext fun a => Fin.ext ?_)
    match a with
    | ⟨0, _⟩ =>
      show k.val = win4_1.index t (0 : Fin 2) * 64 + 1 * k.val
      omega
    | ⟨1, _⟩ =>
      show win4_2.index t (1 : Fin 2) * 64 + 1 * q.val = win4_1.index t (1 : Fin 2) * 64 + 1 * q.val
      omega

/-! ## The blocks tile the result -/

/-- An index of the result is in point t's block iff each coordinate is in the block's range on its axis. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v104).slice (win4_2.rect t)).set ↔ _
  rw [View.set_slice_whole, Rect.mem_set_unit]
  exact Iff.rfl

/-- Every index of the result lies in the block of the point numbered by its row divided by 2000. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 64 ≤ (i 1).val ∧ (i 1).val < win4_2.index t (1 : Fin 2) * 64 + 64
    omega

/-- The result array after the region is the reference's product stage. -/
theorem final (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (hx : V c main_v103 = Cert.ReferenceIdeal.ReadP.val_main_v105 (F := Ideal) x0 x1 x2 x4 x5 x6 x7)
    (hw : V c main_arg8 = x8) :
    (dat4 (F := Ideal) V c).arrAt 2 cfg4.N = Cert.ReferenceIdeal.ReadP.val_main_v106 (F := Ideal) x0 x1 x2 x4 x5 x6 x7 x8 :=
  (dat4 (F := Ideal) V c).arrAt_eq_of_cover 2 _ (fun t _ => flushed_eq V c t x0 x1 x2 x4 x5 x6 x7 x8 hx hw) cover

end Cert.KernelIdeal.Region4

end
-- ==== Proof.ChainB.lean ====
/-
  The second and third layers.  The edge buffers (rows, columns, normalisation) and the first layer's output are
  carried unchanged across the segments that do not write them — a region leaves every array but its outputs,
  its own inputs included; a host stretch leaves every buffer its operations do not write.  With them each
  aggregation stretch leaves the reference's aggregate, and the bias-and-rectifier and product regions leave the
  reference's next stages, as in the first layer.
-/
import proofs.«106835_j38929583571059_2_alg».proof.Proof.ChainA
import proofs.«106835_j38929583571059_2_alg».proof.Proof.Region3
import proofs.«106835_j38929583571059_2_alg».proof.Proof.Region4

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## The edge buffers and the second bias at the second aggregation -/

theorem W7_v68 : W7 m ρ c (Proc.devRef .tc main_v68) = Cert.ReferenceIdeal.ReadP.val_main_v69 (F := Ideal) (A1 m c) :=
  calc W7 m ρ c (Proc.devRef .tc main_v68)
    _ = W6 m ρ c (Proc.devRef .tc main_v68) := W7_of_ne m ρ c main_v68 (by decide)
    _ = W5 m ρ c (Proc.devRef .tc main_v68) := W6_of_ne m ρ c main_v68 (by decide)
    _ = W4 m ρ c (Proc.devRef .tc main_v68) := by host_skip hostOps1
    _ = Cert.ReferenceIdeal.ReadP.val_main_v69 (F := Ideal) (A1 m c) := W4_v68 m ρ c

theorem W7_v40 : W7 m ρ c (Proc.devRef .tc main_v40) = Cert.ReferenceIdeal.ReadP.val_main_v41 (F := Ideal) (A1 m c) :=
  calc W7 m ρ c (Proc.devRef .tc main_v40)
    _ = W6 m ρ c (Proc.devRef .tc main_v40) := W7_of_ne m ρ c main_v40 (by decide)
    _ = W5 m ρ c (Proc.devRef .tc main_v40) := W6_of_ne m ρ c main_v40 (by decide)
    _ = W4 m ρ c (Proc.devRef .tc main_v40) := by host_skip hostOps1
    _ = Cert.ReferenceIdeal.ReadP.val_main_v41 (F := Ideal) (A1 m c) := W4_v40 m ρ c

theorem W7_v43 : W7 m ρ c (Proc.devRef .tc main_v43) = Cert.ReferenceIdeal.ReadP.val_main_v44 (F := Ideal) (A1 m c) :=
  calc W7 m ρ c (Proc.devRef .tc main_v43)
    _ = W6 m ρ c (Proc.devRef .tc main_v43) := W7_of_ne m ρ c main_v43 (by decide)
    _ = W5 m ρ c (Proc.devRef .tc main_v43) := W6_of_ne m ρ c main_v43 (by decide)
    _ = W4 m ρ c (Proc.devRef .tc main_v43) := by host_skip hostOps1
    _ = Cert.ReferenceIdeal.ReadP.val_main_v44 (F := Ideal) (A1 m c) := W4_v43 m ρ c

theorem W7_arg7 : W7 m ρ c (Proc.devRef .tc main_arg7) = A7 m c :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_skip hostOps1
    _ = W3 m ρ c (Proc.devRef .tc main_arg7) := W4_of_ne m ρ c main_arg7 (by decide)
    _ = A7 m c := W3_arg7 m ρ c

/-- The third region reads the first layer's output and leaves it as it was. -/
theorem W7_v87 : W7 m ρ c (Proc.devRef .tc main_v87)
    = Cert.ReferenceIdeal.ReadP.val_main_v87 (F := Ideal) (A0 m c) (A1 m c) (A2 m c) (A4 m c) (A5 m c) :=
  ((W7_arr m ρ c 0).trans (((dat2 (V6 m ρ) c).arrAt_in 0 rfl _).trans (A_eq2 (V6 m ρ) c 0))).trans (W6_v87 m ρ c)

/-! ## The second aggregation, its bias row, the second layer -/

set_option maxHeartbeats 2000000 in
theorem W8_v101 : W8 m ρ c (Proc.devRef .tc main_v101)
    = Cert.ReferenceIdeal.ReadP.val_main_v101 (F := Ideal) (A0 m c) (A1 m c) (A2 m c) (A4 m c) (A5 m c) (A6 m c) := by
  show StableHlo.after hostOps3 (W7 m ρ c) (Proc.devRef .tc main_v101) = _
  after_results_simp
  rw [W7_v88 m ρ c, W7_v68 m ρ c, W7_v40 m ρ c, W7_v43 m ρ c]
  rfl

theorem W8_v102 : W8 m ρ c (Proc.devRef .tc main_v102) = Cert.ReferenceIdeal.ReadP.val_main_v102 (F := Ideal) (A7 m c) := by
  show StableHlo.after hostOps3 (W7 m ρ c) (Proc.devRef .tc main_v102) = _
  after_results
  rw [W7_arg7 m ρ c]
  exact row64 _

/-- After the fourth region its output array holds the reference's second layer output. -/
theorem W9_v103 : W9 m ρ c (Proc.devRef .tc main_v103)
    = Cert.ReferenceIdeal.ReadP.val_main_v105 (F := Ideal) (A0 m c) (A1 m c) (A2 m c) (A4 m c) (A5 m c) (A6 m c) (A7 m c) :=
  (W9_arr m ρ c 2).trans
    (Cert.KernelIdeal.Region3.final (V8 m ρ) c (A0 m c) (A1 m c) (A2 m c) (A4 m c) (A5 m c) (A6 m c) (A7 m c)
      (W8_v101 m ρ c) (W8_v102 m ρ c))

theorem W9_arg8 : W9 m ρ c (Proc.devRef .tc main_arg8) = A8 m c :=
  calc W9 m ρ c (Proc.devRef .tc main_arg8)
    _ = W8 m ρ c (Proc.devRef .tc main_arg8) := W9_of_ne m ρ c main_arg8 (by decide)
    _ = W7 m ρ c (Proc.devRef .tc main_arg8) := by host_skip hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_skip hostOps1
    _ = W3 m ρ c (Proc.devRef .tc main_arg8) := W4_of_ne m ρ c main_arg8 (by decide)
    _ = A8 m c := W3_arg8 m ρ c

/-- After the fifth region its output array holds the reference's third product. -/
theorem W10_v104 : W10 m ρ c (Proc.devRef .tc main_v104)
    = Cert.ReferenceIdeal.ReadP.val_main_v106 (F := Ideal) (A0 m c) (A1 m c) (A2 m c) (A4 m c) (A5 m c) (A6 m c) (A7 m c) (A8 m c) :=
  (W10_arr m ρ c 2).trans
    (Cert.KernelIdeal.Region4.final (V9 m ρ) c (A0 m c) (A1 m c) (A2 m c) (A4 m c) (A5 m c) (A6 m c) (A7 m c) (A8 m c)
      (W9_v103 m ρ c) (W9_arg8 m ρ c))

/-! ## What the third aggregation and the mean read -/

theorem W10_v68 : W10 m ρ c (Proc.devRef .tc main_v68) = Cert.ReferenceIdeal.ReadP.val_main_v69 (F := Ideal) (A1 m c) :=
  calc W10 m ρ c (Proc.devRef .tc main_v68)
    _ = W9 m ρ c (Proc.devRef .tc main_v68) := W10_of_ne m ρ c main_v68 (by decide)
    _ = W8 m ρ c (Proc.devRef .tc main_v68) := W9_of_ne m ρ c main_v68 (by decide)
    _ = W7 m ρ c (Proc.devRef .tc main_v68) := by host_skip hostOps3
    _ = Cert.ReferenceIdeal.ReadP.val_main_v69 (F := Ideal) (A1 m c) := W7_v68 m ρ c

theorem W10_v40 : W10 m ρ c (Proc.devRef .tc main_v40) = Cert.ReferenceIdeal.ReadP.val_main_v41 (F := Ideal) (A1 m c) :=
  calc W10 m ρ c (Proc.devRef .tc main_v40)
    _ = W9 m ρ c (Proc.devRef .tc main_v40) := W10_of_ne m ρ c main_v40 (by decide)
    _ = W8 m ρ c (Proc.devRef .tc main_v40) := W9_of_ne m ρ c main_v40 (by decide)
    _ = W7 m ρ c (Proc.devRef .tc main_v40) := by host_skip hostOps3
    _ = Cert.ReferenceIdeal.ReadP.val_main_v41 (F := Ideal) (A1 m c) := W7_v40 m ρ c

theorem W10_v43 : W10 m ρ c (Proc.devRef .tc main_v43) = Cert.ReferenceIdeal.ReadP.val_main_v44 (F := Ideal) (A1 m c) :=
  calc W10 m ρ c (Proc.devRef .tc main_v43)
    _ = W9 m ρ c (Proc.devRef .tc main_v43) := W10_of_ne m ρ c main_v43 (by decide)
    _ = W8 m ρ c (Proc.devRef .tc main_v43) := W9_of_ne m ρ c main_v43 (by decide)
    _ = W7 m ρ c (Proc.devRef .tc main_v43) := by host_skip hostOps3
    _ = Cert.ReferenceIdeal.ReadP.val_main_v44 (F := Ideal) (A1 m c) := W7_v43 m ρ c

theorem W10_arg9 : W10 m ρ c (Proc.devRef .tc main_arg9) = A9 m c :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_skip hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_skip hostOps1
    _ = W3 m ρ c (Proc.devRef .tc main_arg9) := W4_of_ne m ρ c main_arg9 (by decide)
    _ = A9 m c := W3_arg9 m ρ c

/-- The first layer's output, carried to the stretch before the mean. -/
theorem W10_v87 : W10 m ρ c (Proc.devRef .tc main_v87)
    = Cert.ReferenceIdeal.ReadP.val_main_v87 (F := Ideal) (A0 m c) (A1 m c) (A2 m c) (A4 m c) (A5 m c) :=
  calc W10 m ρ c (Proc.devRef .tc main_v87)
    _ = W9 m ρ c (Proc.devRef .tc main_v87) := W10_of_ne m ρ c main_v87 (by decide)
    _ = W8 m ρ c (Proc.devRef .tc main_v87) := W9_of_ne m ρ c main_v87 (by decide)
    _ = W7 m ρ c (Proc.devRef .tc main_v87) := by host_skip hostOps3
    _ = _ := W7_v87 m ρ c

/-- The fifth region reads the second layer's output and leaves it as it was. -/
theorem W10_v103 : W10 m ρ c (Proc.devRef .tc main_v103)
    = Cert.ReferenceIdeal.ReadP.val_main_v105 (F := Ideal) (A0 m c) (A1 m c) (A2 m c) (A4 m c) (A5 m c) (A6 m c) (A7 m c) :=
  ((W10_arr m ρ c 0).trans (((dat4 (V9 m ρ) c).arrAt_in 0 rfl _).trans (A_eq4 (V9 m ρ) c 0))).trans (W9_v103 m ρ c)

end Cert.KernelIdeal.Chain

end
-- ==== Proof.Consts.lean ====
/-
  The float constants the value proofs of this certificate need as extended reals: the kernel's named
  reciprocal, which the certificate's table reads as the rational 1/3, and the reference's divisor 3.0, whose
  binary word denotes the real 3.  Stated once, so that the modules that use them unfold nothing.
-/
import proofs.«106835_j38929583571059_2_alg».proof.KernelIdeal
import Idealize.ShloMosaic.PureOps.Ideal
import Idealize.ShloMosaic.PureOps.IdealRules

noncomputable section

namespace Cert.Consts

open Idealize.ShloMosaic

/-- The word of 3.0 denotes the real 3. -/
theorem ofBits_three : Ideal.ofBits .f32 0x40400000#32 = ((3 : ℝ) : EReal) := by
  simp [Ideal.ofBits, Ideal.ieee, -EReal.coe_mul]; norm_num

/-- The kernel's named reciprocal denotes the rational 1/3 at the exact reals, by the certificate's table. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- A quotient by the real 3 is the product with 1/3, on every extended real. -/
theorem div_three (x : EReal) : Ideal.div x (Ideal.ofBits .f32 0x40400000#32) = x * ((1 / 3 : ℝ) : EReal) := by
  rw [ofBits_three]
  exact Ideal.div_coe (by norm_num : (3 : ℝ) ≠ 0) x

end Cert.Consts

end
-- ==== Proof.Region5.lean ====
/-
  Region 5 of the kernel: the third layer's bias and rectifier fused into the mean of the three layers, row
  block by row block.  Point t stages rows 2000·t … of the third aggregate, of the first and of the second
  layer's outputs (all [50000, 64]) and the one [1, 64] bias row, and writes back
  ((x1 + x2) + max(a + b, 0)) · (1/3) as rows 2000·t … of the [50000, 64] mean.  The reference forms
  x3 = max(a + b, 0) as a whole array, then (x1 + x2 + x3) / 3.  Entry by entry the two differ only in the last
  step, a product with the rational 1/3 against a quotient by the real 3: one value on every extended real.
  The 25 blocks tile the result, so the array after the region is that stage of the reference.
-/
import proofs.«106835_j38929583571059_2_alg».proof.Proof.Gen.KernelIdeal.Frame
import proofs.«106835_j38929583571059_2_alg».proof.Proof.RefRead
import proofs.«106835_j38929583571059_2_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## The body's value at an entry -/

/-- Entry (p, q) of the body's result: the two earlier layers' entries, plus the rectified third (the aggregate's
    entry plus the bias row's entry of that column, cut below at zero), times the rational 1/3. -/
theorem pay_apply (bb : Vec Ideal S1x64 .f32) (ab y1 y2 : Vec Ideal S2000x64 .f32) (p : Fin 2000) (q : Fin 64) :
    k5_pay1 (F := Ideal) bb ab y1 y2 (ix2 p q)
      = ((y1 (ix2 p q) + y2 (ix2 p q)) + max (ab (ix2 p q) + bb (ix2 (0 : Fin 1) q)) (Ideal.ofBits .f32 0x00000000#32))
          * ((1 / 3 : ℝ) : EReal) := by
  unfold k5_pay1
  simp only [shapeCast_self]
  show ((y1 (ix2 p q) + y2 (ix2 p q)) + max (ab (ix2 p q) + broadcastTo S2000x64 bb broadcasts_S1x64_S2000x64 (ix2 p q)) _)
      * Named.named (F := Ideal) κ "inv_3" (φ := .f32) 0x3EAAAAAB#32 = _
  rw [broadcastTo_1b_ab_apply (a := 2000) (b := 64) bb broadcasts_S1x64_S2000x64 p q, Cert.Consts.inv_3]
  rfl

/-! ## The blocks' places in their arrays -/

/-- The printed index maps over the grid: the three [50000, 64] inputs' blocks move with the output's down the
    rows and the bias row's block stays. -/
theorem idx_facts : ∀ t : Fin cfg5.N, win5_0.index t (0 : Fin 2) = win5_4.index t (0 : Fin 2)
    ∧ win5_0.index t (1 : Fin 2) = 0
    ∧ win5_1.index t (0 : Fin 2) = 0
    ∧ win5_1.index t (1 : Fin 2) = 0
    ∧ win5_2.index t (0 : Fin 2) = win5_4.index t (0 : Fin 2)
    ∧ win5_2.index t (1 : Fin 2) = 0
    ∧ win5_3.index t (0 : Fin 2) = win5_4.index t (0 : Fin 2)
    ∧ win5_3.index t (1 : Fin 2) = 0
    ∧ win5_4.index t (1 : Fin 2) = 0
    ∧ win5_4.index t (0 : Fin 2) ≤ 24 :=
  (by decide +kernel : ∀ t : Fin grid5.N, _)

/-- Every block row of the result is some point's. -/
theorem idx_onto : ∀ q0 : Fin 25, ∃ t : Fin cfg5.N, win5_4.index t = ![q0.val, 0] :=
  (by decide +kernel : ∀ q0 : Fin 25, ∃ t : Fin grid5.N, win5_4.index t = ![q0.val, 0])

variable (V : (c : Dev nD) → (b : Ref sig .tc) → Buf (Elt Ideal) ((c : Thread nD τ).loc b))

/-- What point t writes back is block t of the reference's mean stage, when the region's four input arrays are
    that stage's third aggregate, its bias row and its first two layers' outputs. -/
theorem flushed_eq (c : Dev nD) (t : Fin cfg5.N)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (ha : V c main_v117 = Cert.ReferenceIdeal.ReadP.val_main_v119 (F := Ideal) x0 x1 x2 x4 x5 x6 x7 x8)
    (hb : V c main_v118 = Cert.ReferenceIdeal.ReadP.val_main_v120 (F := Ideal) x9)
    (h1 : V c main_v87 = Cert.ReferenceIdeal.ReadP.val_main_v87 (F := Ideal) x0 x1 x2 x4 x5)
    (h2 : V c main_v103 = Cert.ReferenceIdeal.ReadP.val_main_v105 (F := Ideal) x0 x1 x2 x4 x5 x6 x7) :
    (dat5 (F := Ideal) V c).flushed 4 t
      = ((cfg5.win 4).blk t).view.read (Elt Ideal) (Cert.ReferenceIdeal.ReadP.val_main_v127 (F := Ideal) x0 x1 x2 x4 x5 x6 x7 x8 x9) := by
  show (cfg5.win 4).cut (grid5.coords t) ((dat5 (F := Ideal) V c).after 4 t) = _
  rw [after5_4]
  unfold out5_4
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  rw [View.read_apply]
  refine (pay_apply (iblk5 V c 1 t) (iblk5 V c 0 t) (iblk5 V c 2 t) (iblk5 V c 3 t) p q).trans ?_
  rw [Cert.ReferenceIdeal.ReadP.val_main_v127_apply, Cert.ReferenceIdeal.ReadP.val_main_v126_apply, Cert.ReferenceIdeal.ReadP.val_main_cst_23_apply,
    Cert.ReferenceIdeal.ReadP.val_main_v125_apply, Cert.ReferenceIdeal.ReadP.val_main_v124_apply, Cert.ReferenceIdeal.ReadP.val_main_v123_apply, Cert.ReferenceIdeal.ReadP.val_main_v122_apply,
    Cert.ReferenceIdeal.ReadP.val_main_v121_apply, Cert.ReferenceIdeal.ReadP.val_main_call3_v0_apply, Cert.ReferenceIdeal.ReadP.val_main_call3_cst_apply]
  have ga : iblk5 V c 0 t (ix2 p q)
      = Cert.ReferenceIdeal.ReadP.val_main_v119 (F := Ideal) x0 x1 x2 x4 x5 x6 x7 x8 (((cfg5.win 4).blk t).view.emb (ix2 p q)) := by
    show V c main_v117 (((cfg5.win 0).blk t).view.emb (ix2 p q)) = _
    rw [ha]
    refine congrArg _ (funext fun a => Fin.ext ?_)
    match a with
    | ⟨0, _⟩ =>
      show win5_0.index t (0 : Fin 2) * 2000 + 1 * p.val = win5_4.index t (0 : Fin 2) * 2000 + 1 * p.val
      omega
    | ⟨1, _⟩ =>
      show win5_0.index t (1 : Fin 2) * 64 + 1 * q.val = win5_4.index t (1 : Fin 2) * 64 + 1 * q.val
      omega
  have gb : iblk5 V c 1 t (ix2 (0 : Fin 1) q)
      = Cert.ReferenceIdeal.ReadP.val_main_v120 (F := Ideal) x9 (Cert.ReferenceIdeal.ReadP.idx_main_v121 (((cfg5.win 4).blk t).view.emb (ix2 p q))) := by
    show V c main_v118 (((cfg5.win 1).blk t).view.emb (ix2 (0 : Fin 1) q)) = _
    rw [hb]
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 64 + 1 * q.val = win5_4.index t (1 : Fin 2) * 64 + 1 * q.val
      omega
  have g1 : iblk5 V c 2 t (ix2 p q)
      = Cert.ReferenceIdeal.ReadP.val_main_v87 (F := Ideal) x0 x1 x2 x4 x5 (((cfg5.win 4).blk t).view.emb (ix2 p q)) := by
    show V c main_v87 (((cfg5.win 2).blk t).view.emb (ix2 p q)) = _
    rw [h1]
    refine congrArg _ (funext fun a => Fin.ext ?_)
    match a with
    | ⟨0, _⟩ =>
      show win5_2.index t (0 : Fin 2) * 2000 + 1 * p.val = win5_4.index t (0 : Fin 2) * 2000 + 1 * p.val
      omega
    | ⟨1, _⟩ =>
      show win5_2.index t (1 : Fin 2) * 64 + 1 * q.val = win5_4.index t (1 : Fin 2) * 64 + 1 * q.val
      omega
  have g2 : iblk5 V c 3 t (ix2 p q)
      = Cert.ReferenceIdeal.ReadP.val_main_v105 (F := Ideal) x0 x1 x2 x4 x5 x6 x7 (((cfg5.win 4).blk t).view.emb (ix2 p q)) := by
    show V c main_v103 (((cfg5.win 3).blk t).view.emb (ix2 p q)) = _
    rw [h2]
    refine congrArg _ (funext fun a => Fin.ext ?_)
    match a with
    | ⟨0, _⟩ =>
      show win5_3.index t (0 : Fin 2) * 2000 + 1 * p.val = win5_4.index t (0 : Fin 2) * 2000 + 1 * p.val
      omega
    | ⟨1, _⟩ =>
      show win5_3.index t (1 : Fin 2) * 64 + 1 * q.val = win5_4.index t (1 : Fin 2) * 64 + 1 * q.val
      omega
  rw [← ga, ← gb, ← g1, ← g2]
  exact (Cert.Consts.div_three _).symm

/-! ## The blocks tile the result -/

/-- An index of the result is in point t's block iff each coordinate is in the block's range on its axis. -/
theorem mem_blk (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v119).slice (win5_4.rect t)).set ↔ _
  rw [View.set_slice_whole, Rect.mem_set_unit]
  exact Iff.rfl

/-- Every index of the result lies in the block of the point numbered by its row divided by 2000. -/
theorem cover (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk]
  intro a
  match a with
  | ⟨0, _⟩ =>
    show win5_4.index t (0 : Fin 2) * 2000 ≤ (i 0).val ∧ (i 0).val < win5_4.index t (0 : Fin 2) * 2000 + 2000
    omega
  | ⟨1, _⟩ =>
    show win5_4.index t (1 : Fin 2) * 64 ≤ (i 1).val ∧ (i 1).val < win5_4.index t (1 : Fin 2) * 64 + 64
    omega

/-- The mean array after the region is the reference's mean stage. -/
theorem final (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S384x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (ha : V c main_v117 = Cert.ReferenceIdeal.ReadP.val_main_v119 (F := Ideal) x0 x1 x2 x4 x5 x6 x7 x8)
    (hb : V c main_v118 = Cert.ReferenceIdeal.ReadP.val_main_v120 (F := Ideal) x9)
    (h1 : V c main_v87 = Cert.ReferenceIdeal.ReadP.val_main_v87 (F := Ideal) x0 x1 x2 x4 x5)
    (h2 : V c main_v103 = Cert.ReferenceIdeal.ReadP.val_main_v105 (F := Ideal) x0 x1 x2 x4 x5 x6 x7) :
    (dat5 (F := Ideal) V c).arrAt 4 cfg5.N = Cert.ReferenceIdeal.ReadP.val_main_v127 (F := Ideal) x0 x1 x2 x4 x5 x6 x7 x8 x9 :=
  (dat5 (F := Ideal) V c).arrAt_eq_of_cover 4 _
    (fun t _ => flushed_eq V c t x0 x1 x2 x4 x5 x6 x7 x8 x9 ha hb h1 h2) cover

end Cert.KernelIdeal.Region5

end
-- ==== Proof.Region6.lean ====
/-
  Region 6 of the kernel: the classifier's logits and their row-wise softmax, in one block.  The grid has ONE
  point, and every window's block is its whole array: the pooled [512, 64] array, the [64, 10] weight, the
  [1, 10] bias row, and the [512, 10] result.  The body forms the logits L = pooled · weight + bias (both factors
  cast to bf16, which at the exact values changes nothing, into a zero accumulator; the bias row broadcast down
  the rows), takes each row's maximum (a fold of max from the value of the word 0xFF800000), exponentiates
  L less that maximum, sums each row's ten exponentials from zero, and divides.  Entry (p, q) of what it stores
  is therefore

      exp (L(p, q) - M(p)) / ∑ k, exp (L(p, k) - M(p)),     M(p) = max-fold over k of L(p, k).

  The reference computes the same thing stage by stage on whole arrays: a dot_general, a broadcast bias, a
  reduce by max from the same word, one more maximum with that word (which changes nothing: a fold of max is at
  least its starting value), two broadcasts, a subtraction, an exponential, a reduce by add from zero, two
  broadcasts and a division.  At the exact values the body's exponential and division and the reference's are
  the same functions, so the two sides are ONE function of (pooled, weight, bias row); no finiteness is used.
  The one block covers the result, so the array after the region IS the reference's last stage, given that the
  region's three input arrays are the reference's pooled stage, its weight and its bias row.
-/
import proofs.«106835_j38929583571059_2_alg».proof.Proof.Gen.KernelIdeal.Frame
import proofs.«106835_j38929583571059_2_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region6

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a whole-block access, however spelt. -/
theorem hz : (![0, 0] : Fin 2 → Nat) = fun _ => 0 := funext fun a => by fin_cases a <;> rfl

/-! ## Two layout readings -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row-wise softmax of the logits, as a function of the three operands -/

/-- Row p's logit for class q: the pooled row against the weight's column q, plus the bias row's entry q. -/
def logit (P : Vec Ideal S512x64 .f32) (W : Vec Ideal S64x10 .f32) (B : Vec Ideal S1x10 .f32) (p : Fin 512) (q : Fin 10) : EReal :=
  (∑ k : Fin 64, P (ix2 p k) * W (ix2 k q)) + B (ix2 (0 : Fin 1) q)

/-- Row p's largest logit, folded from the value of the word 0xFF800000. -/
def rowMax (P : Vec Ideal S512x64 .f32) (W : Vec Ideal S64x10 .f32) (B : Vec Ideal S1x10 .f32) (p : Fin 512) : EReal :=
  (Finset.univ : Finset (Fin 10)).fold max (Ideal.ofBits .f32 0xFF800000#32) (fun k => logit P W B p k)

/-- Row p's softmax at class q: the exponential of the logit less the row's maximum, over the row's sum of those. -/
def soft (P : Vec Ideal S512x64 .f32) (W : Vec Ideal S64x10 .f32) (B : Vec Ideal S1x10 .f32) (p : Fin 512) (q : Fin 10) : EReal :=
  Ideal.div (Ideal.exp (logit P W B p q - rowMax P W B p)) (∑ k : Fin 10, Ideal.exp (logit P W B p k - rowMax P W B p))

/-! ## The body's reductions along a row -/

/-- The index over row p with coordinate k inserted on the reduced axis is (p, k). -/
theorem lift_eq (h : S512x10.Reduces [1] S512) (p : Fin 512) (k : Fin 10) : h.lift (ix1 p) k = ix2 p k :=
  funext fun a => Fin.ext (by match a with | ⟨0, _⟩ => rfl | ⟨1, _⟩ => rfl)

/-- The body's row maximum, cast to a column and broadcast back over the row, read at (p, q): the fold of max over
    row p's ten entries, from the value of the accumulator's word. -/
theorem rowmax_apply (Lg : FVec Ideal S512x10 .f32) (h1 : FKind.Formats .f32)
    (h2 : (0xFF800000#32 : BitVec FTy.f32.bits) = FKind.maximumf.neutral .f32 h1) (p : Fin 512) (q : Fin 10) :
    broadcastTo S512x10 (shapeCast S512x1 (multiReduction .maximumf [1] S512 Lg 0xFF800000#32 reduces_S512x10_S512 h1 h2)
        shapeCasts_S512_S512x1) broadcasts_S512x1_S512x10 (ix2 p q)
      = (Finset.univ : Finset (Fin 10)).fold max (Ideal.ofBits .f32 0xFF800000#32) (fun k => Lg (ix2 p k)) := by
  refine (broadcastTo_a1_ab_apply (a := 512) (b := 10) _ broadcasts_S512x1_S512x10 p q).trans ?_
  refine (shapeCast_a_a1_apply (a := 512) _ shapeCasts_S512_S512x1 p 0).trans ?_
  refine (Ideal.multiReduction_maximumf_single Lg _ reduces_S512x10_S512 h1 h2 (ix1 p)).trans ?_
  exact Finset.fold_congr (fun k _ => congrArg Lg (lift_eq _ p k))

/-- The body's row sum, cast to a column and broadcast back over the row, read at (p, q): the sum of row p's ten
    entries. -/
theorem rowsum_apply (E : FVec Ideal S512x10 .f32) (h1 : FKind.Formats .f32)
    (h3 : (0x00000000#32 : BitVec FTy.f32.bits) = FKind.add.neutral .f32 h1) (p : Fin 512) (q : Fin 10) :
    broadcastTo S512x10 (shapeCast S512x1 (multiReduction .add [1] S512 E 0x00000000#32 reduces_S512x10_S512 h1 h3)
        shapeCasts_S512_S512x1) broadcasts_S512x1_S512x10 (ix2 p q)
      = ∑ k : Fin 10, E (ix2 p k) := by
  refine (broadcastTo_a1_ab_apply (a := 512) (b := 10) _ broadcasts_S512x1_S512x10 p q).trans ?_
  refine (shapeCast_a_a1_apply (a := 512) _ shapeCasts_S512_S512x1 p 0).trans ?_
  refine (Ideal.multiReduction_add_single E _ reduces_S512x10_S512 h1 h3 (ix1 p)).trans ?_
  exact Finset.sum_congr rfl (fun k _ => congrArg E (lift_eq _ p k))

/-! ## The body's value at an entry -/

/-- Entry (p, q) of the body's product: the pooled row p against the weight's column q, summed over the 64
    contracted coordinates (the two casts to bf16 change nothing at the exact values, the accumulator is zero). -/
theorem mm_apply (P : Vec Ideal S512x64 .f32) (W : Vec Ideal S64x10 .f32) (p : Fin 512) (q : Fin 10) :
    matmul (F := Ideal) dot_S512x64_S64x10_S512x10_1_0_0_1_n_n none (truncf .bf16 P bitsLt_bf16_f32) (truncf .bf16 W bitsLt_bf16_f32)
        (constant (F := Ideal) S512x10 .f32 0x00000000#32) (ix2 p q)
      = ∑ k : Fin 64, P (ix2 p k) * W (ix2 k q) := by
  refine (Ideal.matmul_constant_zero_apply dot_S512x64_S64x10_S512x10_1_0_0_1_n_n none _ _ (ix2 p q)).trans ?_
  rw [← Equiv.sum_comp (contrEquiv1 dot_S512x64_S64x10_S512x10_1_0_0_1_n_n 64 rfl rfl).symm]
  refine Finset.sum_congr rfl fun k _ => ?_
  have hk := contrEquiv1_symm_val dot_S512x64_S64x10_S512x10_1_0_0_1_n_n 64 rfl rfl k
  have el : dot_S512x64_S64x10_S512x10_1_0_0_1_n_n.lhsIdx (ix2 p q)
      ((contrEquiv1 dot_S512x64_S64x10_S512x10_1_0_0_1_n_n 64 rfl rfl).symm k) = ix2 p k :=
    funext fun a => Fin.ext (by
      match a with
      | ⟨0, _⟩ =>
        show (dot_S512x64_S64x10_S512x10_1_0_0_1_n_n.lhsIdx (ix2 p q) _ 0).val = p.val
        unfold DotDims.lhsIdx
        rw [dif_neg (show ¬(0 : Fin S512x64.rank) ∈ dot_S512x64_S64x10_S512x10_1_0_0_1_n_n.lhsBatch by decide),
          dif_pos (show (0 : Fin S512x64.rank) ∈ dot_S512x64_S64x10_S512x10_1_0_0_1_n_n.lhsNonContracting by decide)]
        rfl
      | ⟨1, _⟩ => exact (dot_S512x64_S64x10_S512x10_1_0_0_1_n_n.lhsIdx_val_of_single rfl (ix2 p q) _).trans hk)
  have er : dot_S512x64_S64x10_S512x10_1_0_0_1_n_n.rhsIdx (ix2 p q)
      ((contrEquiv1 dot_S512x64_S64x10_S512x10_1_0_0_1_n_n 64 rfl rfl).symm k) = ix2 k q :=
    funext fun a => Fin.ext (by
      match a with
      | ⟨0, _⟩ => exact (dot_S512x64_S64x10_S512x10_1_0_0_1_n_n.rhsIdx_val_of_single rfl (ix2 p q) _).trans hk
      | ⟨1, _⟩ =>
        show (dot_S512x64_S64x10_S512x10_1_0_0_1_n_n.rhsIdx (ix2 p q) _ 1).val = q.val
        unfold DotDims.rhsIdx
        rw [dif_neg (show ¬(1 : Fin S64x10.rank) ∈ dot_S512x64_S64x10_S512x10_1_0_0_1_n_n.rhsBatch by decide),
          dif_pos (show (1 : Fin S64x10.rank) ∈ dot_S512x64_S64x10_S512x10_1_0_0_1_n_n.rhsNonContracting by decide)]
        rfl)
  rw [el, er]
  rfl

/-- Entry (p, q) of the body's logits: the product's entry plus the bias row's entry q. -/
theorem logits_apply (P : Vec Ideal S512x64 .f32) (W : Vec Ideal S64x10 .f32) (B : Vec Ideal S1x10 .f32) (p : Fin 512) (q : Fin 10) :
    addf (F := Ideal) (matmul (F := Ideal) dot_S512x64_S64x10_S512x10_1_0_0_1_n_n none (truncf .bf16 P bitsLt_bf16_f32) (truncf .bf16 W bitsLt_bf16_f32)
          (constant (F := Ideal) S512x10 .f32 0x00000000#32))
        (broadcastTo S512x10 B broadcasts_S1x10_S512x10) (ix2 p q)
      = logit P W B p q :=
  congrArg₂ (· + ·) (mm_apply P W p q) (broadcastTo_1b_ab_apply (a := 512) (b := 10) B broadcasts_S1x10_S512x10 p q)

/-- The body's last five steps on ANY array of logits, read at (p, q): the exponential of the entry less its row's
    maximum, divided by the row's sum of those exponentials. -/
theorem softmax_apply (Lg : FVec Ideal S512x10 .f32) (h1 : FKind.Formats .f32)
    (h2 : (0xFF800000#32 : BitVec FTy.f32.bits) = FKind.maximumf.neutral .f32 h1)
    (h3 : (0x00000000#32 : BitVec FTy.f32.bits) = FKind.add.neutral .f32 h1) (p : Fin 512) (q : Fin 10) :
    divf (exp (subf Lg (broadcastTo S512x10 (shapeCast S512x1 (multiReduction .maximumf [1] S512 Lg 0xFF800000#32 reduces_S512x10_S512 h1 h2)
          shapeCasts_S512_S512x1) broadcasts_S512x1_S512x10)))
        (broadcastTo S512x10 (shapeCast S512x1 (multiReduction .add [1] S512
            (exp (subf Lg (broadcastTo S512x10 (shapeCast S512x1 (multiReduction .maximumf [1] S512 Lg 0xFF800000#32 reduces_S512x10_S512 h1 h2)
          shapeCasts_S512_S512x1) broadcasts_S512x1_S512x10)))
            0x00000000#32 reduces_S512x10_S512 h1 h3) shapeCasts_S512_S512x1) broadcasts_S512x1_S512x10) (ix2 p q)
      = Ideal.div
          (Ideal.exp (Lg (ix2 p q) - (Finset.univ : Finset (Fin 10)).fold max (Ideal.ofBits .f32 0xFF800000#32) (fun j => Lg (ix2 p j))))
          (∑ k : Fin 10, Ideal.exp (Lg (ix2 p k) - (Finset.univ : Finset (Fin 10)).fold max (Ideal.ofBits .f32 0xFF800000#32) (fun j => Lg (ix2 p j)))) := by
  rw [divf_apply]
  refine congrArg₂ Ideal.div ?_ ?_
  · exact congrArg Ideal.exp (congrArg (Lg (ix2 p q) - ·) (rowmax_apply Lg h1 h2 p q))
  · refine (rowsum_apply _ h1 h3 p q).trans ?_
    exact Finset.sum_congr rfl fun k _ =>
      congrArg Ideal.exp (congrArg (Lg (ix2 p k) - ·) (rowmax_apply Lg h1 h2 p k))

/-- Entry (p, q) of the body's result: row p's softmax at q, of the logits of the three blocks. -/
theorem pay_apply (P : Vec Ideal S512x64 .f32) (W : Vec Ideal S64x10 .f32) (B : Vec Ideal S1x10 .f32) (p : Fin 512) (q : Fin 10) :
    k6_pay1 (F := Ideal) P W B (ix2 p q) = soft P W B p q := by
  unfold k6_pay1
  simp only [shapeCast_self]
  refine (softmax_apply _ _ _ _ p q).trans ?_
  unfold soft rowMax
  simp only [logits_apply]

/-! ## The reference's stages at an entry -/

section Reference

variable (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S50000, .i32⟩ : BufTy).Contents (Elt Ideal))
    (x4 : (⟨Cert.ReferenceIdeal.S384x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x64, .f32⟩ : BufTy).Contents (Elt Ideal)) (x9 : (⟨Cert.ReferenceIdeal.S64, .f32⟩ : BufTy).Contents (Elt Ideal))
    (x10 : (⟨Cert.ReferenceIdeal.S64x10, .f32⟩ : BufTy).Contents (Elt Ideal)) (x11 : (⟨Cert.ReferenceIdeal.S10, .f32⟩ : BufTy).Contents (Elt Ideal))

/-- The reference's logits at (p, q): its dot_general's sum plus its broadcast bias, the same function of the
    pooled array, the weight and the bias row as the body's. -/
theorem ref_logit (p : Fin 512) (q : Fin 10) :
    Cert.ReferenceIdeal.ReadP.val_main_v143 (F := Ideal) x0 x1 x2 x3 x4 x5 x6 x7 x8 x9 x10 x11 (ix2 p q)
      = logit (Cert.ReferenceIdeal.ReadP.val_main_v139 (F := Ideal) x0 x1 x2 x3 x4 x5 x6 x7 x8 x9) x10 (Cert.ReferenceIdeal.ReadP.val_main_v141 (F := Ideal) x11) p q := by
  refine (Cert.ReferenceIdeal.ReadP.val_main_v143_apply x0 x1 x2 x3 x4 x5 x6 x7 x8 x9 x10 x11 (ix2 p q)).trans ?_
  have h140 : Cert.ReferenceIdeal.ReadP.val_main_v140 (F := Ideal) x0 x1 x2 x3 x4 x5 x6 x7 x8 x9 x10 (ix2 p q)
      = ∑ k : Fin 64, Cert.ReferenceIdeal.ReadP.val_main_v139 (F := Ideal) x0 x1 x2 x3 x4 x5 x6 x7 x8 x9 (ix2 p k) * x10 (ix2 k q) := by
    refine (Cert.ReferenceIdeal.ReadP.val_main_v140_apply x0 x1 x2 x3 x4 x5 x6 x7 x8 x9 x10 (ix2 p q)).trans ?_
    refine Finset.sum_congr rfl fun k _ => ?_
    have hl : Cert.ReferenceIdeal.ReadP.lidx_main_v140 (ix2 p q) k = ix2 p k :=
      funext fun a => Fin.ext (by match a with | ⟨0, _⟩ => rfl | ⟨1, _⟩ => rfl)
    have hr : Cert.ReferenceIdeal.ReadP.ridx_main_v140 (ix2 p q) k = ix2 k q :=
      funext fun a => Fin.ext (by match a with | ⟨0, _⟩ => rfl | ⟨1, _⟩ => rfl)
    rw [hl, hr]
  have h142 : Cert.ReferenceIdeal.ReadP.val_main_v142 (F := Ideal) x11 (ix2 p q)
      = Cert.ReferenceIdeal.ReadP.val_main_v141 (F := Ideal) x11 (ix2 (0 : Fin 1) q) := by
    refine (Cert.ReferenceIdeal.ReadP.val_main_v142_apply x11 (ix2 p q)).trans ?_
    exact congrArg (Cert.ReferenceIdeal.ReadP.val_main_v141 (F := Ideal) x11)
      (funext fun a => Fin.ext (by match a with | ⟨0, _⟩ => rfl | ⟨1, _⟩ => rfl))
  rw [h140, h142]
  unfold logit
  generalize Cert.ReferenceIdeal.ReadP.val_main_v139 (F := Ideal) x0 x1 x2 x3 x4 x5 x6 x7 x8 x9 = P
  generalize Cert.ReferenceIdeal.ReadP.val_main_v141 (F := Ideal) x11 = B
  rfl

/-- The reference's row maximum at p: its reduce folds max over row p's ten logits from the value of the word
    0xFF800000, and the further maximum with that same value changes nothing, a fold of max being at least its
    starting value. -/
theorem ref_max (p : Fin 512) :
    Cert.ReferenceIdeal.ReadP.val_main_v146 (F := Ideal) x0 x1 x2 x3 x4 x5 x6 x7 x8 x9 x10 x11 (ix1 p)
      = (Finset.univ : Finset (Fin 10)).fold max (Ideal.ofBits .f32 0xFF800000#32) (fun j => Cert.ReferenceIdeal.ReadP.val_main_v143 (F := Ideal) x0 x1 x2 x3 x4 x5 x6 x7 x8 x9 x10 x11 (ix2 p j)) := by
  have h144 : Cert.ReferenceIdeal.ReadP.val_main_v144 (F := Ideal) x0 x1 x2 x3 x4 x5 x6 x7 x8 x9 x10 x11 (ix1 p)
      = (Finset.univ : Finset (Fin 10)).fold max (Ideal.ofBits .f32 0xFF800000#32) (fun j => Cert.ReferenceIdeal.ReadP.val_main_v143 (F := Ideal) x0 x1 x2 x3 x4 x5 x6 x7 x8 x9 x10 x11 (ix2 p j)) := by
    unfold Cert.ReferenceIdeal.ReadP.val_main_v144
    generalize Cert.ReferenceIdeal.ReadP.val_main_v143 (F := Ideal) x0 x1 x2 x3 x4 x5 x6 x7 x8 x9 x10 x11 = y
    refine (Host.reduce_eq_fold_single (α := Ideal .f32) (FloatOps.maximumf (F := Ideal) (φ := .f32)) y _ _
      (by decide : Cert.ReferenceIdeal.S512x10.Reduces [1] Cert.ReferenceIdeal.S512) _ (ix1 p)).trans ?_
    exact Finset.fold_congr (fun k _ => congrArg y (lift_eq _ p k))
  have h145 : Cert.ReferenceIdeal.ReadP.val_main_v145 (F := Ideal) (ix1 p) = Ideal.ofBits .f32 0xFF800000#32 :=
    (Cert.ReferenceIdeal.ReadP.val_main_v145_apply (F := Ideal) (ix1 p)).trans rfl
  have hle : Ideal.ofBits .f32 0xFF800000#32
      ≤ (Finset.univ : Finset (Fin 10)).fold max (Ideal.ofBits .f32 0xFF800000#32) (fun j => Cert.ReferenceIdeal.ReadP.val_main_v143 (F := Ideal) x0 x1 x2 x3 x4 x5 x6 x7 x8 x9 x10 x11 (ix2 p j)) :=
    (Finset.le_fold_max _).2 (Or.inl le_rfl)
  refine (Cert.ReferenceIdeal.ReadP.val_main_v146_apply x0 x1 x2 x3 x4 x5 x6 x7 x8 x9 x10 x11 (ix1 p)).trans ?_
  rw [h145, h144]
  generalize (Finset.univ : Finset (Fin 10)).fold max (Ideal.ofBits .f32 0xFF800000#32) (fun j => Cert.ReferenceIdeal.ReadP.val_main_v143 (F := Ideal) x0 x1 x2 x3 x4 x5 x6 x7 x8 x9 x10 x11 (ix2 p j)) = m at hle ⊢
  exact max_eq_right hle

/-- The reference's row maximum broadcast back over the row, at (p, c). -/
theorem ref_bmax (p : Fin 512) (c : Fin 10) :
    Cert.ReferenceIdeal.ReadP.val_main_v148 (F := Ideal) x0 x1 x2 x3 x4 x5 x6 x7 x8 x9 x10 x11 (ix2 p c) = Cert.ReferenceIdeal.ReadP.val_main_v146 (F := Ideal) x0 x1 x2 x3 x4 x5 x6 x7 x8 x9 x10 x11 (ix1 p) := by
  refine (Cert.ReferenceIdeal.ReadP.val_main_v148_apply x0 x1 x2 x3 x4 x5 x6 x7 x8 x9 x10 x11 (ix2 p c)).trans ?_
  refine (Cert.ReferenceIdeal.ReadP.val_main_v147_apply x0 x1 x2 x3 x4 x5 x6 x7 x8 x9 x10 x11 _).trans ?_
  exact congrArg (Cert.ReferenceIdeal.ReadP.val_main_v146 (F := Ideal) x0 x1 x2 x3 x4 x5 x6 x7 x8 x9 x10 x11)
    (funext fun a => Fin.ext (by match a with | ⟨0, _⟩ => rfl))

/-- The reference's exponentials at (p, c): of the logit less the row's maximum. -/
theorem ref_exp (p : Fin 512) (c : Fin 10) :
    Cert.ReferenceIdeal.ReadP.val_main_v150 (F := Ideal) x0 x1 x2 x3 x4 x5 x6 x7 x8 x9 x10 x11 (ix2 p c)
      = Ideal.exp (Cert.ReferenceIdeal.ReadP.val_main_v143 (F := Ideal) x0 x1 x2 x3 x4 x5 x6 x7 x8 x9 x10 x11 (ix2 p c) - Cert.ReferenceIdeal.ReadP.val_main_v146 (F := Ideal) x0 x1 x2 x3 x4 x5 x6 x7 x8 x9 x10 x11 (ix1 p)) := by
  refine (Cert.ReferenceIdeal.ReadP.val_main_v150_apply x0 x1 x2 x3 x4 x5 x6 x7 x8 x9 x10 x11 (ix2 p c)).trans ?_
  refine (congrArg (FloatOps.hostUnary (F := Ideal) (φ := .f32) .exp) (Cert.ReferenceIdeal.ReadP.val_main_v149_apply x0 x1 x2 x3 x4 x5 x6 x7 x8 x9 x10 x11 (ix2 p c))).trans ?_
  rw [ref_bmax x0 x1 x2 x3 x4 x5 x6 x7 x8 x9 x10 x11 p c]
  generalize Cert.ReferenceIdeal.ReadP.val_main_v143 (F := Ideal) x0 x1 x2 x3 x4 x5 x6 x7 x8 x9 x10 x11 (ix2 p c) = a
  generalize Cert.ReferenceIdeal.ReadP.val_main_v146 (F := Ideal) x0 x1 x2 x3 x4 x5 x6 x7 x8 x9 x10 x11 (ix1 p) = b
  rfl

/-- The reference's row sum broadcast back over the row, at (p, q): the sum of row p's ten exponentials (its
    starting value is zero). -/
theorem ref_bsum (p : Fin 512) (q : Fin 10) :
    Cert.ReferenceIdeal.ReadP.val_main_v153 (F := Ideal) x0 x1 x2 x3 x4 x5 x6 x7 x8 x9 x10 x11 (ix2 p q) = ∑ k : Fin 10, Cert.ReferenceIdeal.ReadP.val_main_v150 (F := Ideal) x0 x1 x2 x3 x4 x5 x6 x7 x8 x9 x10 x11 (ix2 p k) := by
  refine (Cert.ReferenceIdeal.ReadP.val_main_v153_apply x0 x1 x2 x3 x4 x5 x6 x7 x8 x9 x10 x11 (ix2 p q)).trans ?_
  refine (Cert.ReferenceIdeal.ReadP.val_main_v152_apply x0 x1 x2 x3 x4 x5 x6 x7 x8 x9 x10 x11 _).trans ?_
  refine (Cert.ReferenceIdeal.ReadP.val_main_v151_apply x0 x1 x2 x3 x4 x5 x6 x7 x8 x9 x10 x11 _).trans ?_
  generalize Cert.ReferenceIdeal.ReadP.val_main_v150 (F := Ideal) x0 x1 x2 x3 x4 x5 x6 x7 x8 x9 x10 x11 = E
  refine (congrArg (· + _) (show Cert.ReferenceIdeal.ReadP.val_main_cst_30 (F := Ideal) _ = 0 from Ideal.ofBits_zero_f32)).trans ?_
  rw [zero_add]
  exact Finset.sum_congr rfl fun k _ => congrArg E
    (funext fun a => Fin.ext (by match a with | ⟨0, _⟩ => rfl | ⟨1, _⟩ => rfl))

/-- Entry (p, q) of the reference's last stage: row p's softmax at q, of the logits of its pooled stage, the
    weight and the bias row. -/
theorem ref_apply (p : Fin 512) (q : Fin 10) :
    Cert.ReferenceIdeal.ReadP.val_main_v154 (F := Ideal) x0 x1 x2 x3 x4 x5 x6 x7 x8 x9 x10 x11 (ix2 p q)
      = soft (Cert.ReferenceIdeal.ReadP.val_main_v139 (F := Ideal) x0 x1 x2 x3 x4 x5 x6 x7 x8 x9) x10 (Cert.ReferenceIdeal.ReadP.val_main_v141 (F := Ideal) x11) p q := by
  refine (Cert.ReferenceIdeal.ReadP.val_main_v154_apply x0 x1 x2 x3 x4 x5 x6 x7 x8 x9 x10 x11 (ix2 p q)).trans ?_
  have hs : ∑ k : Fin 10, Cert.ReferenceIdeal.ReadP.val_main_v150 (F := Ideal) x0 x1 x2 x3 x4 x5 x6 x7 x8 x9 x10 x11 (ix2 p k)
      = ∑ k : Fin 10, Ideal.exp (Cert.ReferenceIdeal.ReadP.val_main_v143 (F := Ideal) x0 x1 x2 x3 x4 x5 x6 x7 x8 x9 x10 x11 (ix2 p k) - Cert.ReferenceIdeal.ReadP.val_main_v146 (F := Ideal) x0 x1 x2 x3 x4 x5 x6 x7 x8 x9 x10 x11 (ix1 p)) :=
    Finset.sum_congr rfl fun k _ => ref_exp x0 x1 x2 x3 x4 x5 x6 x7 x8 x9 x10 x11 p k
  rw [ref_bsum x0 x1 x2 x3 x4 x5 x6 x7 x8 x9 x10 x11 p q, ref_exp x0 x1 x2 x3 x4 x5 x6 x7 x8 x9 x10 x11 p q, hs, ref_max x0 x1 x2 x3 x4 x5 x6 x7 x8 x9 x10 x11 p]
  simp only [ref_logit x0 x1 x2 x3 x4 x5 x6 x7 x8 x9 x10 x11]
  unfold soft rowMax
  generalize Cert.ReferenceIdeal.ReadP.val_main_v139 (F := Ideal) x0 x1 x2 x3 x4 x5 x6 x7 x8 x9 = P
  generalize Cert.ReferenceIdeal.ReadP.val_main_v141 (F := Ideal) x11 = B
  rfl

end Reference

/-! ## The blocks' places in their arrays -/

/-- The printed index maps at the grid's one point: every window's block is block (0, 0), its whole array. -/
theorem idx_facts : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0 :=
  (by decide +kernel : ∀ t : Fin grid6.N, _)

/-- The grid has a point. -/
theorem pt_exists : ∃ t : Fin cfg6.N, win6_3.index t = ![0, 0] :=
  (by decide +kernel : ∃ t : Fin grid6.N, win6_3.index t = ![0, 0])

variable (V : (c : Dev nD) → (b : Ref sig .tc) → Buf (Elt Ideal) ((c : Thread nD τ).loc b))

/-- The pooled window's block is the whole pooled array. -/
theorem blk0_eq (c : Dev nD) (t : Fin cfg6.N) : iblk6 V c 0 t = V c main_v131 := by
  obtain ⟨e0, e1, e2, e3, e4, e5, e6, e7⟩ := idx_facts t
  funext i
  obtain ⟨a, b, rfl⟩ : ∃ (a : Fin 512) (b : Fin 64), i = ix2 a b := ⟨i 0, i 1, eq_ix2 i⟩
  show V c main_v131 (((cfg6.win 0).blk t).view.emb (ix2 a b)) = V c main_v131 (ix2 a b)
  refine congrArg _ (funext fun ax => Fin.ext ?_)
  match ax with
  | ⟨0, _⟩ =>
    show win6_0.index t (0 : Fin 2) * 512 + 1 * a.val = a.val
    omega
  | ⟨1, _⟩ =>
    show win6_0.index t (1 : Fin 2) * 64 + 1 * b.val = b.val
    omega

/-- The weight window's block is the whole weight. -/
theorem blk1_eq (c : Dev nD) (t : Fin cfg6.N) : iblk6 V c 1 t = V c main_arg10 := by
  obtain ⟨e0, e1, e2, e3, e4, e5, e6, e7⟩ := idx_facts t
  funext i
  obtain ⟨a, b, rfl⟩ : ∃ (a : Fin 64) (b : Fin 10), i = ix2 a b := ⟨i 0, i 1, eq_ix2 i⟩
  show V c main_arg10 (((cfg6.win 1).blk t).view.emb (ix2 a b)) = V c main_arg10 (ix2 a b)
  refine congrArg _ (funext fun ax => Fin.ext ?_)
  match ax with
  | ⟨0, _⟩ =>
    show win6_1.index t (0 : Fin 2) * 64 + 1 * a.val = a.val
    omega
  | ⟨1, _⟩ =>
    show win6_1.index t (1 : Fin 2) * 10 + 1 * b.val = b.val
    omega

/-- The bias window's block is the whole bias row. -/
theorem blk2_eq (c : Dev nD) (t : Fin cfg6.N) : iblk6 V c 2 t = V c main_v132 := by
  obtain ⟨e0, e1, e2, e3, e4, e5, e6, e7⟩ := idx_facts t
  funext i
  obtain ⟨a, b, rfl⟩ : ∃ (a : Fin 1) (b : Fin 10), i = ix2 a b := ⟨i 0, i 1, eq_ix2 i⟩
  show V c main_v132 (((cfg6.win 2).blk t).view.emb (ix2 a b)) = V c main_v132 (ix2 a b)
  refine congrArg _ (funext fun ax => Fin.ext ?_)
  match ax with
  | ⟨0, _⟩ =>
    show win6_2.index t (0 : Fin 2) * 1 + 1 * a.val = a.val
    omega
  | ⟨1, _⟩ =>
    show win6_2.index t (1 : Fin 2) * 10 + 1 * b.val = b.val
    omega

/-- An entry of the output window's block is that entry of the output array. -/
theorem emb3_eq (t : Fin cfg6.N) (p : Fin 512) (q : Fin 10) :
    ((cfg6.win 3).blk t).view.emb (ix2 p q) = ix2 p q := by
  obtain ⟨e0, e1, e2, e3, e4, e5, e6, e7⟩ := idx_facts t
  refine funext fun ax => Fin.ext ?_
  match ax with
  | ⟨0, _⟩ =>
    show win6_3.index t (0 : Fin 2) * 512 + 1 * p.val = p.val
    omega
  | ⟨1, _⟩ =>
    show win6_3.index t (1 : Fin 2) * 10 + 1 * q.val = q.val
    omega

/-- What the point writes back, at (p, q): row p's softmax at q of the logits of the region's three input arrays. -/
theorem flushed_soft (c : Dev nD) (t : Fin cfg6.N) (p : Fin 512) (q : Fin 10) :
    (dat6 (F := Ideal) V c).flushed 3 t (ix2 p q) = soft (V c main_v131) (V c main_arg10) (V c main_v132) p q := by
  show (cfg6.win 3).cut (grid6.coords t) ((dat6 (F := Ideal) V c).after 3 t) (ix2 p q) = _
  rw [after6_3]
  unfold out6_3
  rw [View.canon_unit_zero hz]
  simp only [View.ld_unit_zero (S := S512x64) hz, View.ld_unit_zero (S := S64x10) hz, View.ld_unit_zero (S := S1x10) hz]
  show k6_pay1 (F := Ideal) (iblk6 V c 0 t) (iblk6 V c 1 t) (iblk6 V c 2 t) (ix2 p q) = _
  refine (pay_apply (iblk6 V c 0 t) (iblk6 V c 1 t) (iblk6 V c 2 t) p q).trans ?_
  exact congrFun (congrFun (congr (congr (congrArg soft (blk0_eq V c t)) (blk1_eq V c t)) (blk2_eq V c t)) p) q

/-! ## The one block is the whole result -/

/-- An index of the result is in point t's block iff each coordinate is in the block's range on its axis. -/
theorem mem_blk (t : Fin cfg6.N) (i : S512x10.Idx) :
    i ∈ ((cfg6.win 3).blk t).view.set ↔ ∀ a : Fin 2, win6_3.index t a * S512x10.size a ≤ (i a).val ∧ (i a).val < win6_3.index t a * S512x10.size a + S512x10.size a := by
  show i ∈ ((View.whole main_v133).slice (win6_3.rect t)).set ↔ _
  rw [View.set_slice_whole, Rect.mem_set_unit]
  exact Iff.rfl

/-- Every index of the result lies in the one point's block. -/
theorem cover (i : S512x10.Idx) : ∃ t : Fin cfg6.N, (cfg6.win 3).flush t = true ∧ i ∈ ((cfg6.win 3).blk t).view.set := by
  have hi0 : (i 0).val < 512 := (i 0).isLt
  have hi1 : (i 1).val < 10 := (i 1).isLt
  obtain ⟨t, ht⟩ := pt_exists
  have q0 : win6_3.index t (0 : Fin 2) = 0 := congrFun ht 0
  have q1 : win6_3.index t (1 : Fin 2) = 0 := congrFun ht 1
  refine ⟨t, flush6_3 t, ?_⟩
  rw [mem_blk]
  intro a
  match a with
  | ⟨0, _⟩ =>
    show win6_3.index t (0 : Fin 2) * 512 ≤ (i 0).val ∧ (i 0).val < win6_3.index t (0 : Fin 2) * 512 + 512
    omega
  | ⟨1, _⟩ =>
    show win6_3.index t (1 : Fin 2) * 10 ≤ (i 1).val ∧ (i 1).val < win6_3.index t (1 : Fin 2) * 10 + 10
    omega

/-! ## The array after the region -/

/-- What the point writes back is the (one, whole) block of the reference's last stage, when the region's three
    input arrays are the reference's pooled stage, its weight and its bias row. -/
theorem flushed_eq (c : Dev nD) (t : Fin cfg6.N)
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S50000, .i32⟩ : BufTy).Contents (Elt Ideal))
    (x4 : (⟨Cert.ReferenceIdeal.S384x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x64, .f32⟩ : BufTy).Contents (Elt Ideal)) (x9 : (⟨Cert.ReferenceIdeal.S64, .f32⟩ : BufTy).Contents (Elt Ideal))
    (x10 : (⟨Cert.ReferenceIdeal.S64x10, .f32⟩ : BufTy).Contents (Elt Ideal)) (x11 : (⟨Cert.ReferenceIdeal.S10, .f32⟩ : BufTy).Contents (Elt Ideal))
    (hp : V c main_v131 = Cert.ReferenceIdeal.ReadP.val_main_v139 (F := Ideal) x0 x1 x2 x3 x4 x5 x6 x7 x8 x9)
    (hw : V c main_arg10 = x10)
    (hb : V c main_v132 = Cert.ReferenceIdeal.ReadP.val_main_v141 (F := Ideal) x11) :
    (dat6 (F := Ideal) V c).flushed 3 t
      = ((cfg6.win 3).blk t).view.read (Elt Ideal) (Cert.ReferenceIdeal.ReadP.val_main_v154 (F := Ideal) x0 x1 x2 x3 x4 x5 x6 x7 x8 x9 x10 x11) := by
  funext j
  obtain ⟨p, q, rfl⟩ : ∃ (p : Fin 512) (q : Fin 10), j = ix2 p q := ⟨j 0, j 1, eq_ix2 j⟩
  refine (flushed_soft V c t p q).trans ?_
  show _ = Cert.ReferenceIdeal.ReadP.val_main_v154 (F := Ideal) x0 x1 x2 x3 x4 x5 x6 x7 x8 x9 x10 x11 (((cfg6.win 3).blk t).view.emb (ix2 p q))
  rw [emb3_eq t p q, hp, hw, hb]
  exact (ref_apply x0 x1 x2 x3 x4 x5 x6 x7 x8 x9 x10 x11 p q).symm

/-- The result array after the region is the reference's last stage. -/
theorem final (c : Dev nD)
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S50000, .i32⟩ : BufTy).Contents (Elt Ideal))
    (x4 : (⟨Cert.ReferenceIdeal.S384x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x64, .f32⟩ : BufTy).Contents (Elt Ideal)) (x9 : (⟨Cert.ReferenceIdeal.S64, .f32⟩ : BufTy).Contents (Elt Ideal))
    (x10 : (⟨Cert.ReferenceIdeal.S64x10, .f32⟩ : BufTy).Contents (Elt Ideal)) (x11 : (⟨Cert.ReferenceIdeal.S10, .f32⟩ : BufTy).Contents (Elt Ideal))
    (hp : V c main_v131 = Cert.ReferenceIdeal.ReadP.val_main_v139 (F := Ideal) x0 x1 x2 x3 x4 x5 x6 x7 x8 x9)
    (hw : V c main_arg10 = x10)
    (hb : V c main_v132 = Cert.ReferenceIdeal.ReadP.val_main_v141 (F := Ideal) x11) :
    (dat6 (F := Ideal) V c).arrAt 3 cfg6.N = Cert.ReferenceIdeal.ReadP.val_main_v154 (F := Ideal) x0 x1 x2 x3 x4 x5 x6 x7 x8 x9 x10 x11 :=
  (dat6 (F := Ideal) V c).arrAt_eq_of_cover 3 _ (fun t _ => flushed_eq V c t x0 x1 x2 x3 x4 x5 x6 x7 x8 x9 x10 x11 hp hw hb) cover

end Cert.KernelIdeal.Region6

end
-- ==== Proof.ChainC.lean ====
/-
  The mean, the pooling and the softmax.  The third aggregation stretch leaves the reference's third aggregate
  and the third bias as one row, and carries the first two layers' outputs; the sixth region leaves the
  reference's mean of the three layers; the stretch after it pools the mean over the graphs — sums scattered
  along the batch vector, divided by the graphs' sizes — as the reference does, and presents the output bias as
  one row; the last region leaves the reference's softmax of the pooled features' affine image.  So the
  kernel's result array, at the last boundary of its run, is the reference's result stage of the arguments.
-/
import proofs.«106835_j38929583571059_2_alg».proof.Proof.ChainB
import proofs.«106835_j38929583571059_2_alg».proof.Proof.Region5
import proofs.«106835_j38929583571059_2_alg».proof.Proof.Region6

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## The third aggregation, its bias row, and the two earlier layers at the mean -/

set_option maxHeartbeats 2000000 in
theorem W11_v117 : W11 m ρ c (Proc.devRef .tc main_v117)
    = Cert.ReferenceIdeal.ReadP.val_main_v119 (F := Ideal) (A0 m c) (A1 m c) (A2 m c) (A4 m c) (A5 m c) (A6 m c) (A7 m c) (A8 m c) := by
  show StableHlo.after hostOps5 (W10 m ρ c) (Proc.devRef .tc main_v117) = _
  after_results_simp
  rw [W10_v104 m ρ c, W10_v68 m ρ c, W10_v40 m ρ c, W10_v43 m ρ c]
  rfl

theorem W11_v118 : W11 m ρ c (Proc.devRef .tc main_v118) = Cert.ReferenceIdeal.ReadP.val_main_v120 (F := Ideal) (A9 m c) := by
  show StableHlo.after hostOps5 (W10 m ρ c) (Proc.devRef .tc main_v118) = _
  after_results
  rw [W10_arg9 m ρ c]
  exact row64 _

theorem W11_v87 : W11 m ρ c (Proc.devRef .tc main_v87)
    = Cert.ReferenceIdeal.ReadP.val_main_v87 (F := Ideal) (A0 m c) (A1 m c) (A2 m c) (A4 m c) (A5 m c) :=
  calc W11 m ρ c (Proc.devRef .tc main_v87)
    _ = W10 m ρ c (Proc.devRef .tc main_v87) := by host_skip hostOps5
    _ = _ := W10_v87 m ρ c

theorem W11_v103 : W11 m ρ c (Proc.devRef .tc main_v103)
    = Cert.ReferenceIdeal.ReadP.val_main_v105 (F := Ideal) (A0 m c) (A1 m c) (A2 m c) (A4 m c) (A5 m c) (A6 m c) (A7 m c) :=
  calc W11 m ρ c (Proc.devRef .tc main_v103)
    _ = W10 m ρ c (Proc.devRef .tc main_v103) := by host_skip hostOps5
    _ = _ := W10_v103 m ρ c

/-- After the sixth region its output array holds the reference's mean of the three layers. -/
theorem W12_v119 : W12 m ρ c (Proc.devRef .tc main_v119)
    = Cert.ReferenceIdeal.ReadP.val_main_v127 (F := Ideal) (A0 m c) (A1 m c) (A2 m c) (A4 m c) (A5 m c) (A6 m c) (A7 m c) (A8 m c) (A9 m c) :=
  (W12_arr m ρ c 4).trans
    (Cert.KernelIdeal.Region5.final (V11 m ρ) c (A0 m c) (A1 m c) (A2 m c) (A4 m c) (A5 m c) (A6 m c) (A7 m c) (A8 m c) (A9 m c)
      (W11_v117 m ρ c) (W11_v118 m ρ c) (W11_v87 m ρ c) (W11_v103 m ρ c))

/-! ## The batch vector and the output layer's arguments, still as launched -/

theorem W12_arg3 : W12 m ρ c (Proc.devRef .tc main_arg3) = A3 m c :=
  calc W12 m ρ c (Proc.devRef .tc main_arg3)
    _ = W11 m ρ c (Proc.devRef .tc main_arg3) := W12_of_ne m ρ c main_arg3 (by decide)
    _ = W10 m ρ c (Proc.devRef .tc main_arg3) := by host_skip hostOps5
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := by host_skip hostOps3
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := by host_skip hostOps1
    _ = W3 m ρ c (Proc.devRef .tc main_arg3) := W4_of_ne m ρ c main_arg3 (by decide)
    _ = A3 m c := W3_arg3 m ρ c

theorem W12_arg11 : W12 m ρ c (Proc.devRef .tc main_arg11) = A11 m c :=
  calc W12 m ρ c (Proc.devRef .tc main_arg11)
    _ = W11 m ρ c (Proc.devRef .tc main_arg11) := W12_of_ne m ρ c main_arg11 (by decide)
    _ = W10 m ρ c (Proc.devRef .tc main_arg11) := by host_skip hostOps5
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := by host_skip hostOps3
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by host_skip hostOps1
    _ = W3 m ρ c (Proc.devRef .tc main_arg11) := W4_of_ne m ρ c main_arg11 (by decide)
    _ = A11 m c := W3_arg11 m ρ c

theorem W13_arg10 : W13 m ρ c (Proc.devRef .tc main_arg10) = A10 m c :=
  calc W13 m ρ c (Proc.devRef .tc main_arg10)
    _ = W12 m ρ c (Proc.devRef .tc main_arg10) := by host_skip hostOps6
    _ = W11 m ρ c (Proc.devRef .tc main_arg10) := W12_of_ne m ρ c main_arg10 (by decide)
    _ = W10 m ρ c (Proc.devRef .tc main_arg10) := by host_skip hostOps5
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by host_skip hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_skip hostOps1
    _ = W3 m ρ c (Proc.devRef .tc main_arg10) := W4_of_ne m ρ c main_arg10 (by decide)
    _ = A10 m c := W3_arg10 m ρ c

/-! ## The pooling and the output bias row -/

set_option maxHeartbeats 2000000 in
/-- The stretch after the mean leaves the reference's pooled features: the mean's rows summed per graph, divided
    by the graph's size (at least one). -/
theorem W13_v131 : W13 m ρ c (Proc.devRef .tc main_v131)
    = Cert.ReferenceIdeal.ReadP.val_main_v139 (F := Ideal) (A0 m c) (A1 m c) (A2 m c) (A3 m c) (A4 m c) (A5 m c) (A6 m c) (A7 m c) (A8 m c) (A9 m c) := by
  show StableHlo.after hostOps6 (W12 m ρ c) (Proc.devRef .tc main_v131) = _
  after_results_simp
  rw [W12_v119 m ρ c, W12_arg3 m ρ c]
  rfl

theorem W13_v132 : W13 m ρ c (Proc.devRef .tc main_v132) = Cert.ReferenceIdeal.ReadP.val_main_v141 (F := Ideal) (A11 m c) := by
  show StableHlo.after hostOps6 (W12 m ρ c) (Proc.devRef .tc main_v132) = _
  after_results
  rw [W12_arg11 m ρ c]
  exact row10 _

/-! ## The result -/

/-- At the last boundary of the kernel's run its result array holds the reference's result stage of the arguments. -/
theorem W14_v133 : W14 m ρ c (Proc.devRef .tc main_v133)
    = Cert.ReferenceIdeal.ReadP.val_main_v154 (F := Ideal) (A0 m c) (A1 m c) (A2 m c) (A3 m c) (A4 m c) (A5 m c) (A6 m c) (A7 m c) (A8 m c) (A9 m c) (A10 m c) (A11 m c) :=
  (W14_arr m ρ c 3).trans
    (Cert.KernelIdeal.Region6.final (V13 m ρ) c (A0 m c) (A1 m c) (A2 m c) (A3 m c) (A4 m c) (A5 m c) (A6 m c) (A7 m c) (A8 m c) (A9 m c) (A10 m c) (A11 m c)
      (W13_v131 m ρ c) (W13_arg10 m ρ c) (W13_v132 m ρ c))

end Cert.KernelIdeal.Chain

end
-- ==== Proof.lean ====
/-
  A three-layer graph convolution network with Chebyshev input features, mean pooling over the graphs and a
  softmax output, as a kernel of seven pipelined regions among stretches of host operations, against its
  whole-array reference.  At the exact reals (every float an extended real, every operation the exact one, a
  change of float format the identity) the two programs compute one function of the twelve arguments:

  * the sparse products, the edge lists with self loops, the symmetric normalisation, every gather along the
    rows and scatter along the columns, and the pooling are the same host operations on both sides;
  * the kernel's first region forms T0·W1a + T1·W1b + T2·W1c over row blocks of 2000, the reference the one
    product [T0 | T1 | T2]·W1: the sum over the 384 concatenated columns splits into the three sums over 128,
    which needs only that addition of extended reals is associative and commutative;
  * the bias-and-rectifier and product regions compute, row block by row block, the entries of the reference's
    whole-array stages;
  * the mean multiplies by the rational 1/3 — the kernel's literal 0.333333343 read by the certificate's table
    as the fraction its source spells — where the reference divides by the real 3: one value on every extended
    real;
  * the last region is the softmax written out, the reference's with one more max(−∞, ·) around the row maximum,
    which changes nothing.

  No step uses the finiteness of the inputs.  The kernel's run with its result named (Proof/KernelResult.lean) ends
  at the contents of its last segment boundary; Proof/ChainBase.lean … ChainC.lean read that boundary back through
  the segments, each region by its own module (Proof/Region0.lean … Region6.lean), to the reference's result stage
  of the arguments; the reference's run is its list of host operations read back.
-/
import proofs.«106835_j38929583571059_2_alg».proof.Defs
import proofs.«106835_j38929583571059_2_alg».proof.Proof.Gen.Kernel
import proofs.«106835_j38929583571059_2_alg».proof.Proof.Gen.Kernel.Skeleton
import proofs.«106835_j38929583571059_2_alg».proof.Proof.Gen.Kernel.Launch
import proofs.«106835_j38929583571059_2_alg».proof.Proof.Gen.Kernel.Points
import proofs.«106835_j38929583571059_2_alg».proof.Proof.Gen.Kernel.Frame
import proofs.«106835_j38929583571059_2_alg».proof.Proof.Gen.KernelIdeal
import proofs.«106835_j38929583571059_2_alg».proof.Proof.Gen.KernelIdeal.Skeleton
import proofs.«106835_j38929583571059_2_alg».proof.Proof.Gen.KernelIdeal.Launch
import proofs.«106835_j38929583571059_2_alg».proof.Proof.Gen.KernelIdeal.Points
import proofs.«106835_j38929583571059_2_alg».proof.Proof.Gen.KernelIdeal.Frame
import proofs.«106835_j38929583571059_2_alg».proof.Proof.Gen.ReferenceIdeal
import proofs.«106835_j38929583571059_2_alg».proof.Proof.Gen.Pre_finite_inputs
import proofs.«106835_j38929583571059_2_alg».proof.Proof.RefRun
import proofs.«106835_j38929583571059_2_alg».proof.Proof.RefRead
import proofs.«106835_j38929583571059_2_alg».proof.Proof.KernelResult
import proofs.«106835_j38929583571059_2_alg».proof.Proof.ChainC
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the certificate's table gives the name "inv_3" the value 1/3, and the
    printed constant is that value at the exact reals. -/
theorem preserves : Cert.preserves_Kernel_KernelIdeal :=
  IdealRules.named_const.statement Cert.KernelIdeal.κ "inv_3" .f32 0x3EAAAAAB#32 ((1 / 3 : ℝ) : EReal) rfl

/-- From memories agreeing on the arguments both idealized programs run and end with one result: the reference's
    result stage of the arguments. -/
theorem algebraic : Cert.algebraic_KernelIdeal_ReferenceIdeal := by
  intro m ρ m' ρ' _ hagree
  refine ⟨fun c => Cert.ReferenceIdeal.ReadP.val_main_v154 (F := Ideal)
      (Cert.KernelIdeal.Chain.A0 m c) (Cert.KernelIdeal.Chain.A1 m c) (Cert.KernelIdeal.Chain.A2 m c)
      (Cert.KernelIdeal.Chain.A3 m c) (Cert.KernelIdeal.Chain.A4 m c) (Cert.KernelIdeal.Chain.A5 m c)
      (Cert.KernelIdeal.Chain.A6 m c) (Cert.KernelIdeal.Chain.A7 m c) (Cert.KernelIdeal.Chain.A8 m c)
      (Cert.KernelIdeal.Chain.A9 m c) (Cert.KernelIdeal.Chain.A10 m c) (Cert.KernelIdeal.Chain.A11 m c), ?_, ?_⟩
  · exact (θ_run Cert.KernelIdeal.defs _ _).mono
      (fun r h c => ⟨(h c).1.trans (Cert.KernelIdeal.Chain.W14_v133 m ρ c), (h c).2⟩)
      (Cert.KernelIdeal.Result.run m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.ReadP.val_main_v154_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
